-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S512x512 : Shape := ⟨2, ![512, 512]⟩
abbrev S512 : Shape := ⟨1, ![512]⟩
abbrev S512x1 : Shape := ⟨2, ![512, 1]⟩
abbrev S8192x512 : Shape := ⟨2, ![8192, 512]⟩
abbrev S8192 : Shape := ⟨1, ![8192]⟩
abbrev S1024x512 : Shape := ⟨2, ![1024, 512]⟩
abbrev S512x1024 : Shape := ⟨2, ![512, 1024]⟩
abbrev S_ : Shape := ⟨0, ![]⟩

abbrev nBuf : Space → Nat
  | .hbm => 18
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096, .f32⟩
  | .hbm, ⟨5, _⟩ => ⟨S8192x512, .bf16⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512, .f32⟩
  | .local _ .vmem, ⟨9, _⟩ => ⟨S512, .f32⟩
  | .local _ .vmem, ⟨10, _⟩ => ⟨S512x512, .bf16⟩
  | .local _ .vmem, ⟨11, _⟩ => ⟨S512x512, .bf16⟩
  | .local _ .vmem, ⟨12, _⟩ => ⟨S8192x512, .bf16⟩
  | .local _ .vmem, ⟨13, _⟩ => ⟨S512, .f32⟩
  | .local _ .vmem, ⟨14, _⟩ => ⟨S512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

@[reducible] def k1_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg4 : BitVec 32 := Scf.iv c0_i32 c1_i32 k1_t1
  let c1024_i32 : BitVec 32 := 1024#32
  let v6 : BitVec 32 := Scalar.muli arg4 c1024_i32
  v6
def k1_off1 (k1_t1 : Fin k1_t1_loop.trips) : Fin 2 → Nat :=
  let c0_i32 : BitVec 32 := 0#32
  let c1_i32 : BitVec 32 := 1#32
  let arg4 : BitVec 32 := Scf.iv c0_i32 c1_i32 k1_t1
  let c1024_i32 : BitVec 32 := 1024#32
  let v6 : BitVec 32 := Scalar.muli arg4 c1024_i32
  let v7 : BitVec 32 := v6
  let v8 : Index := Scalar.indexCast v7
  let c0_3 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  broadcasts_S512x1_S512x512 : S512x1.Broadcasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S512_S512_0 : ∀ a, (![0] : Fin 1 → Nat) a + S512.size a ≤ S512.size a
  h_S512 : 0 < S512.numel
  concatenates_S4096x512_S4096x512_S8192x512_d0 : Shape.Concatenates [S4096x512, S4096x512] S8192x512 0
  concatenates_S4096_S4096_S8192_d0 : Shape.Concatenates [S4096, S4096] S8192 0
  shapeCasts_S512x512_S512x512 : S512x512.ShapeCasts S512x512
  h_S1024x512 : 0 < S1024x512.numel
  shapeCasts_S1024x512_S1024x512 : S1024x512.ShapeCasts S1024x512
  iota_S512x1024_d0_w32 : S512x1024.Iotas .tc 32 [0]
  iota_S512x1024_d1_w32 : S512x1024.Iotas .tc 32 [1]
  reduces_S512x1024_S512 : S512x1024.Reduces [1] S512
  bcast_S_S8192 : S_.BroadcastsInDim S8192 (![] : Fin 0 → Fin S8192.rank)
  reducesTo_S8192_S_d0 : S8192.ReducesTo [0] S_
  h_S_ : 0 < S_.numel
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .f32 = 32 ∨ (Rect.block (s := S4096x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x512.size a
  hwx0_2 : ∀ i : grid0.Coords, EltTy.bits .bf16 = 32 ∨ (Rect.block (s := S4096x512) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .bf16 = 32 ∨ (Rect.block (s := S4096x512) S512x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hrank1 : 0 < grid1.rank
  k1_t1_ok : k1_t1_loop.OK
  k1_mult1_dvd : ∀ k1_t1 : Fin k1_t1_loop.trips, 1024 ∣ (k1_mult1 k1_t1).toNat
  k1_off1_inb : ∀ k1_t1 : Fin k1_t1_loop.trips, ∀ a, (k1_off1 k1_t1) a + S1024x512.size a ≤ S8192x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .bf16 = 32 ∨ (Rect.block (s := S8192x512) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .bf16 = 32 ∨ (Rect.block (s := S8192x512) S8192x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S8192.size a
  hwx1_2 : ∀ i : grid1.Coords, EltTy.bits .f32 = 32 ∨ (Rect.block (s := S8192) S512.size (cc1_transform_2 i) (hinb1_2 i)).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S8192x512 : Shape := ⟨2, ![8192, 512]⟩
abbrev S8192x8192 : Shape := ⟨2, ![8192, 8192]⟩
abbrev S8192 : Shape := ⟨1, ![8192]⟩

abbrev nBuf : Space → Nat
  | .hbm => 55
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x512, .f32⟩
  | .hbm, ⟨21, _⟩ => ⟨S4096x512, .f32⟩
  | .hbm, ⟨22, _⟩ => ⟨S8192x512, .f32⟩
  | .hbm, ⟨23, _⟩ => ⟨S8192x8192, .f32⟩
  | .hbm, ⟨24, _⟩ => ⟨S4096x512, .f32⟩
  | .hbm, ⟨25, _⟩ => ⟨S_, .f32⟩
  | .hbm, ⟨26, _⟩ => ⟨S4096, .f32⟩
  | .hbm, ⟨27, _⟩ => ⟨S8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .i32⟩
  | .hbm, ⟨33, _⟩ => ⟨S8192x8192, .i32⟩
  | .hbm, ⟨34, _⟩ => ⟨S_, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S8192x8192, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  concatenates_S4096x512_S4096x512_S8192x512_d0 : Shape.Concatenates [S4096x512, S4096x512] S8192x512 0
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.KRegion0.lean ====
/- REGION 0 of the idealized kernel program: the first pallas_call (the row normalisation), at a parameter
   \`V\` — the TensorCore's buffer contents when the region is entered. Each window's block at a point, what the
   body leaves in each output buffer as a function of the two input blocks, the body's triple, the proof data
   and the body obligation. Generic in the float model \`F\`. -/
import proofs.«103048_j24962349924507_2_alg».proof.Proof.Gen.Kernel.Launch
import proofs.«103048_j24962349924507_2_alg».proof.Proof.Gen.Kernel.Skeleton
import proofs.«103048_j24962349924507_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window \`w\`'s block at point \`t\`, read off its array as the region finds it (\`V\`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is \`V\`'s (\`hA\`) and whose body leaves the block in place (\`hafter\`): the window is fetched
    whenever its index moves, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [512, 512] staging buffer: every load and store of the two-dimensional buffers goes through it. -/
abbrev r0_0 : Rect S512x512 := Rect.unit (s := S512x512) ![0, 0] S512x512.size inb_S512x512_S512x512_0_0
/-- The whole [512] staging buffer. -/
abbrev r0_1 : Rect S512 := Rect.unit (s := S512) ![0] S512.size inb_S512_S512_0

/-! ## What the body leaves in each output window's buffer -/

/-- Window 2's staging buffer after the body: its one store, of the first input block normalised row by row and
    rounded to bf16. -/
def out0_2 (x0 : Vec F S512x512 .f32) : Vec F S512x512 .bf16 :=
  View.canon [⟨r0_0, k0_pay4 (View.ld x0 r0_0)⟩]

/-- Its store tiles the buffer, so it covers it. -/
theorem cover0_2 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-- Window 3's staging buffer after the body: its one store, of the second input block normalised row by row and
    rounded to bf16. -/
def out0_3 (x1 : Vec F S512x512 .f32) : Vec F S512x512 .bf16 :=
  View.canon [⟨r0_0, k0_pay5 (View.ld x1 r0_0)⟩]

/-- Its store tiles the buffer, so it covers it. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-- Window 4's staging buffer after the body: its one store, of the row-wise inner products of the two normalised
    input blocks. -/
def out0_4 (x0 : Vec F S512x512 .f32) (x1 : Vec F S512x512 .f32) : Vec F S512 .f32 :=
  View.canon [⟨r0_1, k0_pay3 (View.ld x0 r0_0) (View.ld x1 r0_0)⟩]

/-- Its store tiles the buffer, so it covers it. -/
theorem cover0_4 (p0 : Vec F S512 .f32) (y : S512.Idx) :
    ∃ pc ∈ ([⟨r0_1, p0⟩] : List (View.Piece (Elt F) S512 .f32)), y ∈ pc.1.set :=
  View.cover_of_tiled [⟨r0_1, p0⟩] S512.size (by rfl) y

/-! ## The body's triple -/

set_option maxHeartbeats 1000000 in
/-- The kernel body on whole staging memrefs, the inputs' at read contents \`x0\`, \`x1\` and the outputs' at anything,
    runs to the continuation holding the inputs' as they were and each output's at \`out0_W\` of the inputs'. Each
    output buffer is loaded just before it is stored; the loaded value is not used. -/
theorem sound_kernel0 (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512 .f32) (harg5 : arg5.IsWhole)
    (x0 : Vec F S512x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1) ∗ owns (c : Thread nD τ) arg5 fullShare (out0_4 x0 x1)) -∗ K ⟨⟩))
      ⊢ wp frame (wpE (defs₀ (F := F)) Variants.none c none) E (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core \`c\`: the arrays as the region finds them (\`V\`); after the body at
    point \`t\` each input's buffer at its block and each output's at \`out0_W\` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point \`t\`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (\`before0_W\`), so \`sound_kernel0\` applies; the
    invariant and the core's \`owes\` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.KRegion1.lean ====
import proofs.«103048_j24962349924507_2_alg».proof.Proof.Gen.Kernel.Launch
import proofs.«103048_j24962349924507_2_alg».proof.Proof.Gen.Kernel.Skeleton
import proofs.«103048_j24962349924507_2_alg».proof.Proof.Gen.Kernel.Points
import proofs.«103048_j24962349924507_2_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel call: each grid point adds up one block of 512 rows of the masked exponential similarities

At grid point t the body holds rows 512·t … 512·t+511 of the normalised array (window 0), the whole normalised array
(window 1, staged once) and writes the 512 row sums (window 2). The row sums are accumulated over eight chunks of 1024
columns by a counted loop; what the loop leaves is named here by the carried value after its last trip. -/

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole array, staged at the first point only, is still in its staging buffer at every later point: its block
    index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_in : Rect S512x512 := Rect.unit (s := S512x512) ![0, 0] S512x512.size inb_S512x512_S512x512_0_0
abbrev r1_out : Rect S512 := Rect.unit (s := S512) ![0] S512.size inb_S512_S512_0

/-- The accumulator after the last of the eight trips, from the row block x0 and the whole array x1. -/
def loopOut (c : Dev nD) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (x0 : Vec F S512x512 .bf16) (x1 : Vec F S8192x512 .bf16) : FVec F S512 .f32 :=
  st_k1_t1 (F := F) Variants.none c none i arg1 harg1 arg2 harg2 arg3 harg3
    (View.readAt (Elt F) arg1.view r1_in.toLoadRect (harg1.unread x0)) (harg2.unread x1)
    k1_pay1 (Scf.trips k1_t1_loop.lb k1_t1_loop.ub k1_t1_loop.st)

/-- What the body leaves in the output block's buffer: its one store, of the accumulator after the last trip. -/
def out1_2 (c : Dev nD) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (x0 : Vec F S512x512 .bf16) (x1 : Vec F S8192x512 .bf16) : Vec F S512 .f32 :=
  View.canon [⟨r1_out, loopOut c i arg1 harg1 arg2 harg2 arg3 harg3 x0 x1⟩]

/-- The one store covers the buffer. -/
theorem cover1_2 (p0 : Vec F S512 .f32) (y : S512.Idx) :
    ∃ pc ∈ ([⟨r1_out, p0⟩] : List (View.Piece (Elt F) S512 .f32)), y ∈ pc.1.set :=
  View.cover_of_tiled [⟨r1_out, p0⟩] S512.size (by rfl) y

set_option maxHeartbeats 1000000 in
/-- The body on whole staging memrefs: the two inputs are left as they were and the output buffer ends at out1_2. -/
theorem sound_kernel1 (c : Dev nD) (E : Set ℕ) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (x0 : Vec F S512x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 c i arg1 harg1 arg2 harg2 arg3 harg3 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  exact View.read_writes_eq_canon _ _ _ (cover1_2 _)

/-! ## The proof data -/

/-- What point t leaves in the output block's buffer. -/
def after1_2at (c : Dev nD) (t : Fin cfg1.N) : Vec F S512 .f32 :=
  out1_2 c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (iblk1 V c 0 t) (iblk1 V c 1 t)

/-- The proof data of the second call on core c: the arrays as the call finds them; the two inputs' buffers left at their
    blocks, the output's at the row sums; the one array both input windows read is held by each at one half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => after1_2at V c t
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = after1_2at V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold after1_2at
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

/-! ## The one array behind both input windows

Both input windows read the array of normalised rows; each holds it at one half of the full share, and the two halves
are dealt from and joined back into the whole. -/

theorem share1_0 (c : Dev nD) : (dat1 V c).share 0 = fullShare.left := by unfold Dat.share; rfl
theorem share1_1 (c : Dev nD) : (dat1 V c).share 1 = fullShare.right := by unfold Dat.share; rfl
theorem share1_2 (c : Dev nD) : (dat1 V c).share 2 = fullShare := by unfold Dat.share; rfl

theorem arrImage1 : (Finset.univ.image (Pipeline.arrRef spec1) : Finset (Ref sig .tc)) = {main_v1, main_v3} := by decide

/-- The two distinct buffers behind the three windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_v3) ↦{fullShare} W main_v3)) := by
  unfold Pipeline.arrBufs
  rw [arrImage1, bigSep_insert (by decide), bigSep_singleton]
  rfl

/-- The windows' arrays one by one, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare} G 2)) := by
  unfold Dat.arrays
  rw [bigSep_congr (Ψ := fun w : Fin cfg1.W => (((c : Thread nD τ).loc (Pipeline.arrRef spec1 w)) ↦{(dat1 V c).share w} G w : sProp 𝕄))
    fun w _ => by rw [(arr_whole1 w).set_eq_univ]]
  rw [bigSep_W1, share1_0, share1_1, share1_2]

/-- Every unscoped buffer held at a valuation: the two buffers behind the windows, and the rest. -/
theorem held_split1 (c : Dev nD) (W : Valuation τ sig (Elt F)) :
    (StableHlo.held (c : Thread nD τ) (Pipeline.ucRefs τ sig) W : sProp 𝕄)
      = iprop(((((c : Thread nD τ).loc main_v1) ↦{fullShare} W (Proc.devRef .tc main_v1)) ∗ (((c : Thread nD τ).loc main_v3) ↦{fullShare} W (Proc.devRef .tc main_v3)))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.PerCore.unscopedBufs_split₀ (fun _ : Dev nD => cfgs) (1 : Fin 2) c winFacts₀1.arr_unscoped]
  show iprop((Pipeline.arrBufs (Ix := Unit) (Name := ℕ) (U := UR sig nD τ) (Lvl := ℕ) spec1 c (fun b => W (Proc.devRef .tc b)) : sProp 𝕄)
      ∗ Pipeline.unscopedRest spec1 c (fun b => W (Proc.devRef .tc b))) = _
  rw [arrBufs1_eq]

/-- Before any write-back an array holds its entry contents; an input array is never written. -/
theorem arrAt1_0 (c : Dev nD) (n : Nat) : (dat1 V c).arrAt 0 n = V c main_v1 := ((dat1 V c).arrAt_in 0 rfl n).trans (A_eq1 V c 0)
theorem arrAt1_1 (c : Dev nD) (n : Nat) : (dat1 V c).arrAt 1 n = V c main_v1 := ((dat1 V c).arrAt_in 1 rfl n).trans (A_eq1 V c 1)
theorem arrAt1_2_zero (c : Dev nD) : (dat1 V c).arrAt 2 0 = V c main_v3 := A_eq1 V c 2

end Region1

end Cert.Kernel.Hand

end
-- ==== Proof.KRun.lean ====
import proofs.«103048_j24962349924507_2_alg».proof.Proof.Gen.Kernel.Launch
import proofs.«103048_j24962349924507_2_alg».proof.Proof.Gen.Kernel.Skeleton
import proofs.«103048_j24962349924507_2_alg».proof.Proof.Gen.Kernel.Points
import proofs.«103048_j24962349924507_2_alg».proof.Proof.Gen.Kernel.Loops
import proofs.«103048_j24962349924507_2_alg».proof.Proof.KRegion0
import proofs.«103048_j24962349924507_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

/-! # The whole program's run: the two kernel calls and the host operations between and after them

The buffers' contents at each boundary are a fold from the launch memory: after the first call its three result
arrays hold what its eight write-backs leave; then the two concatenations; after the second call the row sums are in
their array; then the closing host operations. Every unscoped buffer is read off the last of these at the end. -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev Va0 : (c : Dev nD) → (b : Ref sig .tc) → Buf (Elt F) ((c : Thread nD τ).loc b) := fun c b => W0 m ρ c b
/-- After the first call: its arrays at what the write-backs leave, every other buffer as launched. -/
def W1 (c : Dev nD) : Valuation τ sig (Elt F) :=
  Pipeline.withArrays spec0 c (W0 m ρ c) fun w => (dat0 (Va0 m ρ) c).arrAt w cfg0.N
theorem W1_arr (c : Dev nD) (w : Fin cfg0.W) :
    W1 m ρ c (Proc.devRef .tc (Pipeline.arrRef spec0 w)) = (dat0 (Va0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Va1 : (c : Dev nD) → (b : Ref sig .tc) → Buf (Elt F) ((c : Thread nD τ).loc b) := fun c b => W1 m ρ c b
theorem hF0 (c : Dev nD) (w : Fin cfg0.W) : (dat0 (Va0 m ρ) c).arrAt w cfg0.N = Va1 m ρ c (Pipeline.arrRef spec0 w) :=
  (W1_arr m ρ c w).symm
theorem hrest0 (c : Dev nD) : ∀ b, b ∉ Finset.univ.image (Pipeline.arrRef spec0) → Va1 m ρ c b = Va0 m ρ c b :=
  fun b hb => W1_of_ne m ρ c b fun w e => hb (Finset.mem_image.mpr ⟨w, Finset.mem_univ _, e⟩)

/-- After the two concatenations (the second call's entry). -/
abbrev W2 : Dev nD → Valuation τ sig (Elt F) := fun c => StableHlo.after hostOps1 (W1 m ρ c)
abbrev Va2 : (c : Dev nD) → (b : Ref sig .tc) → Buf (Elt F) ((c : Thread nD τ).loc b) := fun c b => W2 m ρ c b
/-- After the second call: the row sums in their array, every other buffer as entered. -/
def W3 (c : Dev nD) : Valuation τ sig (Elt F) :=
  Function.update (W2 m ρ c) (Proc.devRef .tc main_v3) ((dat1 (Va2 m ρ) c).arrAt 2 cfg1.N)
abbrev Va3 : (c : Dev nD) → (b : Ref sig .tc) → Buf (Elt F) ((c : Thread nD τ).loc b) := fun c b => W3 m ρ c b
theorem W3_v3 (c : Dev nD) : W3 m ρ c (Proc.devRef .tc main_v3) = (dat1 (Va2 m ρ) c).arrAt 2 cfg1.N := by
  unfold W3; exact Function.update_self _ _ _
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) _ _
/-- After the closing host operations. -/
abbrev W4 : Dev nD → Valuation τ sig (Elt F) := fun c => StableHlo.after hostOps2 (W3 m ρ c)

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Va0 m ρ) c
  | ⟨1, _⟩ => fun c => dat1 (Va2 m ρ) c
abbrev 𝒱H : Variants := Variants.none
abbrev LH : GSem nD τ sig → Finset Unit := fun _ => ∅
abbrev lvH : GSem nD τ sig → Unit → ℕ := fun _ _ => 0
/-- What rides beside the buffers: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The first call as a segment -/

set_option backward.isDefEq.respectTransparency.types false in
def reg0 : RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Va0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Va0 m ρ c) (Va1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment

Its two input windows read one array: at entry that array's full share is split into the two halves the windows hold,
and at exit the halves, each still at the entry contents, are joined again. -/

/-- Off the row sums' array the valuation after the second call is the one before it. -/
theorem rest1_eq (c : Dev nD) :
    (Pipeline.unscopedRest (Ix := Unit) (Name := ℕ) (U := UR sig nD τ) (Lvl := ℕ) spec1 c (fun b => W3 m ρ c b) : sProp 𝕄)
      = Pipeline.unscopedRest spec1 c (fun b => W2 m ρ c b) := by
  unfold Pipeline.unscopedRest
  refine bigSep_congr fun b hb => ?_
  have hne : b ≠ main_v3 := fun e => (Finset.mem_sdiff.mp hb).2 (Finset.mem_image.mpr ⟨2, Finset.mem_univ _, e.symm⟩)
  show ((c : Thread nD τ).loc b ↦{fullShare} W3 m ρ c (Proc.devRef .tc b) : sProp 𝕄) = ((c : Thread nD τ).loc b ↦{fullShare} W2 m ρ c (Proc.devRef .tc b))
  rw [W3_of_ne m ρ c b hne]

set_option backward.isDefEq.respectTransparency.types false in
def reg1 : RegionSeg (pcfgs (F := F)) admH (pdatsH m ρ) () defs₀ 𝒱H LH lvH 1 where
  win := winFacts₀1
  block_pos := block_pos1
  stage_whole := stage_whole1
  K := PEmpty
  osem k := k.elim
  ho := Pipeline.OwnSemFacts.none _
  hbody c := (body_obligation1 (Va2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Va2 m ρ c)
  hentry c := by
    rw [Pipeline.ownSems0_none, show pdatsH m ρ 1 c = dat1 (Va2 m ρ) c from rfl, arrays1_eq, held_split1,
      arrAt1_0, arrAt1_1, arrAt1_2_zero]
    iintro ⟨⟨⟨⟨H1, H3⟩, Hrest⟩, Hp, HO⟩, -, -⟩
    ihave H1' := (pointsTo_share (PosShare.mem_left_op_right fullShare)).1 $$ H1
    icases H1' with ⟨H1l, H1r⟩
    imodintro
    isplitl [H1l H1r H3]
    · isplitl [H1l]; · iexact H1l
      isplitl [H1r]; · iexact H1r
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [show pdatsH m ρ 1 c = dat1 (Va2 m ρ) c from rfl, arrays1_eq, held_split1, rest1_eq,
      arrAt1_0, arrAt1_1, W3_v3, W3_of_ne m ρ c main_v1 (by decide)]
    iintro ⟨⟨H1l, H1r, H3⟩, HO, HY, Hrest⟩
    ihave H1 := (pointsTo_share (PosShare.mem_left_op_right fullShare)).2 $$ [H1l H1r]
    · isplitl [H1l]; · iexact H1l
      iexact H1r
    imodintro
    isplitl [H1 H3 Hrest]
    · isplitl [H1 H3]
      · isplitl [H1]; · iexact H1
        iexact H3
      iexact Hrest
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .region (reg0 m ρ),
    .host (hsegH hostOps1 hostOps1_sub hostOps1_freshH (W1 m ρ)),
    .region (reg1 m ρ),
    .host (hsegH hostOps2 hostOps2_sub hostOps2_freshH (W3 m ρ)) ]

theorem main_runH (c : Dev nD) : main (F := F) c = Pipeline.Seg.run (segsH m ρ) := (main_chain c).trans (by chain_rfl)

set_option backward.isDefEq.respectTransparency.types false in
/-- From any memory with zero counters every weakly fair execution of the program terminates without a fault, and at
    the end every unscoped buffer holds what the fold above says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun c => by
      show iprop(StableHlo.held (c : Thread nD τ) (Pipeline.ucRefs τ sig) (W4 m ρ c) ∗ RH c)
        ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Hand

end
-- ==== Proof.KFrame.lean ====
import proofs.«103048_j24962349924507_2_alg».proof.Proof.Gen.Kernel.Launch
import proofs.«103048_j24962349924507_2_alg».proof.Proof.Gen.Kernel.Skeleton
import proofs.«103048_j24962349924507_2_alg».proof.Proof.Gen.Kernel.Points
import proofs.«103048_j24962349924507_2_alg».proof.Proof.Gen.Kernel.Loops
import proofs.«103048_j24962349924507_2_alg».proof.Proof.KRun
import proofs.«103048_j24962349924507_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

Neither call writes an argument (each reads them through input windows only) and no host operation writes one, so the fold of
the buffers' contents, read at an argument, walks back to the launch memory. -/

variable (m : (ℓ : Loc nD τ sig) → Buf (Elt F) ℓ) (ρ : Dev nD → PrngReg)

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (Va0 m ρ) c).arrAt_in 0 rfl _).trans (A_eq0 (Va0 m ρ) c 0))
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (Va0 m ρ) c).arrAt_in 1 rfl _).trans (A_eq0 (Va0 m ρ) c 1))
    _ = m ((c : Thread nD τ).loc main_arg1) := rfl

/-- The program runs to the end without a fault and leaves both argument arrays as launched, whatever the float values. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucH main_arg0 (by decide))).trans (W4_arg0 m ρ c), (h c _ (mem_ucH main_arg1 (by decide))).trans (W4_arg1 m ρ c)⟩)
    (run_all m ρ)

end Cert.Kernel.Hand

end
-- ==== Proof.Region0.lean ====
/- REGION 0 of the idealized kernel program: the first pallas_call (the row normalisation), at a parameter
   \`V\` — the TensorCore's buffer contents when the region is entered. Each window's block at a point, what the
   body leaves in each output buffer as a function of the two input blocks, the body's triple, the proof data
   and the body obligation. Generic in the float model \`F\`. -/
import proofs.«103048_j24962349924507_2_alg».proof.Proof.Gen.KernelIdeal.Launch
import proofs.«103048_j24962349924507_2_alg».proof.Proof.Gen.KernelIdeal.Skeleton
import proofs.«103048_j24962349924507_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window \`w\`'s block at point \`t\`, read off its array as the region finds it (\`V\`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is \`V\`'s (\`hA\`) and whose body leaves the block in place (\`hafter\`): the window is fetched
    whenever its index moves, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole [512, 512] staging buffer: every load and store of the two-dimensional buffers goes through it. -/
abbrev r0_0 : Rect S512x512 := Rect.unit (s := S512x512) ![0, 0] S512x512.size inb_S512x512_S512x512_0_0
/-- The whole [512] staging buffer. -/
abbrev r0_1 : Rect S512 := Rect.unit (s := S512) ![0] S512.size inb_S512_S512_0

/-! ## What the body leaves in each output window's buffer -/

/-- Window 2's staging buffer after the body: its one store, of the first input block normalised row by row and
    rounded to bf16. -/
def out0_2 (x0 : Vec F S512x512 .f32) : Vec F S512x512 .bf16 :=
  View.canon [⟨r0_0, k0_pay4 (View.ld x0 r0_0)⟩]

/-- Its store tiles the buffer, so it covers it. -/
theorem cover0_2 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-- Window 3's staging buffer after the body: its one store, of the second input block normalised row by row and
    rounded to bf16. -/
def out0_3 (x1 : Vec F S512x512 .f32) : Vec F S512x512 .bf16 :=
  View.canon [⟨r0_0, k0_pay5 (View.ld x1 r0_0)⟩]

/-- Its store tiles the buffer, so it covers it. -/
theorem cover0_3 (p0 : Vec F S512x512 .bf16) (y : S512x512.Idx) :
    ∃ pc ∈ ([⟨r0_0, p0⟩] : List (View.Piece (Elt F) S512x512 .bf16)), y ∈ pc.1.set :=
  View.cover_of_tiled [⟨r0_0, p0⟩] S512x512.size (by rfl) y

/-- Window 4's staging buffer after the body: its one store, of the row-wise inner products of the two normalised
    input blocks. -/
def out0_4 (x0 : Vec F S512x512 .f32) (x1 : Vec F S512x512 .f32) : Vec F S512 .f32 :=
  View.canon [⟨r0_1, k0_pay3 (View.ld x0 r0_0) (View.ld x1 r0_0)⟩]

/-- Its store tiles the buffer, so it covers it. -/
theorem cover0_4 (p0 : Vec F S512 .f32) (y : S512.Idx) :
    ∃ pc ∈ ([⟨r0_1, p0⟩] : List (View.Piece (Elt F) S512 .f32)), y ∈ pc.1.set :=
  View.cover_of_tiled [⟨r0_1, p0⟩] S512.size (by rfl) y

/-! ## The body's triple -/

set_option maxHeartbeats 1000000 in
/-- The kernel body on whole staging memrefs, the inputs' at read contents \`x0\`, \`x1\` and the outputs' at anything,
    runs to the continuation holding the inputs' as they were and each output's at \`out0_W\` of the inputs'. Each
    output buffer is loaded just before it is stored; the loaded value is not used. -/
theorem sound_kernel0 (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512 .f32) (harg5 : arg5.IsWhole)
    (x0 : Vec F S512x512 .f32) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare (out0_2 x0) ∗ owns (c : Thread nD τ) arg4 fullShare (out0_3 x1) ∗ owns (c : Thread nD τ) arg5 fullShare (out0_4 x0 x1)) -∗ K ⟨⟩))
      ⊢ wp frame (wpE (defs₀ (F := F)) Variants.none c none) E (cc0__normalize_kernel i arg1 harg1 arg2 harg2 arg3 harg3 arg4 harg4 arg5 harg5) K := by
  simp only [cc0__normalize_kernel_eq_skeleton]; unfold cc0__normalize_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-! ## The pipeline's proof data -/

/-- The proof data of pipeline 0 on core \`c\`: the arrays as the region finds them (\`V\`); after the body at
    point \`t\` each input's buffer at its block and each output's at \`out0_W\` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t)
    | ⟨3, _⟩ => out0_3 (iblk0 V c 1 t)
    | ⟨4, _⟩ => out0_4 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) := by dsimp only [dat0]
theorem after0_3 (c : Dev nD) (t : Fin cfg0.N) : (dat0 V c).after 3 t = out0_3 (iblk0 V c 1 t) := by dsimp only [dat0]
theorem after0_4 (c : Dev nD) (t : Fin cfg0.N) : (dat0 V c).after 4 t = out0_4 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point \`t\`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (\`before0_W\`), so \`sound_kernel0\` applies; the
    invariant and the core's \`owes\` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.Region1.lean ====
import proofs.«103048_j24962349924507_2_alg».proof.Proof.Gen.KernelIdeal.Launch
import proofs.«103048_j24962349924507_2_alg».proof.Proof.Gen.KernelIdeal.Skeleton
import proofs.«103048_j24962349924507_2_alg».proof.Proof.Gen.KernelIdeal.Points
import proofs.«103048_j24962349924507_2_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel call: each grid point adds up one block of 512 rows of the masked exponential similarities

At grid point t the body holds rows 512·t … 512·t+511 of the normalised array (window 0), the whole normalised array
(window 1, staged once) and writes the 512 row sums (window 2). The row sums are accumulated over eight chunks of 1024
columns by a counted loop; what the loop leaves is named here by the carried value after its last trip. -/

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block is in its staging buffer at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole array, staged at the first point only, is still in its staging buffer at every later point: its block
    index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev r1_in : Rect S512x512 := Rect.unit (s := S512x512) ![0, 0] S512x512.size inb_S512x512_S512x512_0_0
abbrev r1_out : Rect S512 := Rect.unit (s := S512) ![0] S512.size inb_S512_S512_0

/-- The accumulator after the last of the eight trips, from the row block x0 and the whole array x1. -/
def loopOut (c : Dev nD) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (x0 : Vec F S512x512 .bf16) (x1 : Vec F S8192x512 .bf16) : FVec F S512 .f32 :=
  st_k1_t1 (F := F) Variants.none c none i arg1 harg1 arg2 harg2 arg3 harg3
    (View.readAt (Elt F) arg1.view r1_in.toLoadRect (harg1.unread x0)) (harg2.unread x1)
    k1_pay1 (Scf.trips k1_t1_loop.lb k1_t1_loop.ub k1_t1_loop.st)

/-- What the body leaves in the output block's buffer: its one store, of the accumulator after the last trip. -/
def out1_2 (c : Dev nD) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (x0 : Vec F S512x512 .bf16) (x1 : Vec F S8192x512 .bf16) : Vec F S512 .f32 :=
  View.canon [⟨r1_out, loopOut c i arg1 harg1 arg2 harg2 arg3 harg3 x0 x1⟩]

/-- The one store covers the buffer. -/
theorem cover1_2 (p0 : Vec F S512 .f32) (y : S512.Idx) :
    ∃ pc ∈ ([⟨r1_out, p0⟩] : List (View.Piece (Elt F) S512 .f32)), y ∈ pc.1.set :=
  View.cover_of_tiled [⟨r1_out, p0⟩] S512.size (by rfl) y

set_option maxHeartbeats 1000000 in
/-- The body on whole staging memrefs: the two inputs are left as they were and the output buffer ends at out1_2. -/
theorem sound_kernel1 (c : Dev nD) (E : Set ℕ) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (x0 : Vec F S512x512 .bf16) (x1 : Vec F S8192x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 c i arg1 harg1 arg2 harg2 arg3 harg3 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  exact View.read_writes_eq_canon _ _ _ (cover1_2 _)

/-! ## The proof data -/

/-- What point t leaves in the output block's buffer. -/
def after1_2at (c : Dev nD) (t : Fin cfg1.N) : Vec F S512 .f32 :=
  out1_2 c (grid1.coords t) (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2)) (iblk1 V c 0 t) (iblk1 V c 1 t)

/-- The proof data of the second call on core c: the arrays as the call finds them; the two inputs' buffers left at their
    blocks, the output's at the row sums; the one array both input windows read is held by each at one half. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => after1_2at V c t
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = after1_2at V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  unfold after1_2at
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

/-! ## The one array behind both input windows

Both input windows read the array of normalised rows; each holds it at one half of the full share, and the two halves
are dealt from and joined back into the whole. -/

theorem share1_0 (c : Dev nD) : (dat1 V c).share 0 = fullShare.left := by unfold Dat.share; rfl
theorem share1_1 (c : Dev nD) : (dat1 V c).share 1 = fullShare.right := by unfold Dat.share; rfl
theorem share1_2 (c : Dev nD) : (dat1 V c).share 2 = fullShare := by unfold Dat.share; rfl

theorem arrImage1 : (Finset.univ.image (Pipeline.arrRef spec1) : Finset (Ref sig .tc)) = {main_v1, main_v3} := by decide

/-- The two distinct buffers behind the three windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v1) ↦{fullShare} W main_v1) ∗ (((c : Thread nD τ).loc main_v3) ↦{fullShare} W main_v3)) := by
  unfold Pipeline.arrBufs
  rw [arrImage1, bigSep_insert (by decide), bigSep_singleton]
  rfl

/-- The windows' arrays one by one, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_v3) ↦{fullShare} G 2)) := by
  unfold Dat.arrays
  rw [bigSep_congr (Ψ := fun w : Fin cfg1.W => (((c : Thread nD τ).loc (Pipeline.arrRef spec1 w)) ↦{(dat1 V c).share w} G w : sProp 𝕄))
    fun w _ => by rw [(arr_whole1 w).set_eq_univ]]
  rw [bigSep_W1, share1_0, share1_1, share1_2]

/-- Every unscoped buffer held at a valuation: the two buffers behind the windows, and the rest. -/
theorem held_split1 (c : Dev nD) (W : Valuation τ sig (Elt F)) :
    (StableHlo.held (c : Thread nD τ) (Pipeline.ucRefs τ sig) W : sProp 𝕄)
      = iprop(((((c : Thread nD τ).loc main_v1) ↦{fullShare} W (Proc.devRef .tc main_v1)) ∗ (((c : Thread nD τ).loc main_v3) ↦{fullShare} W (Proc.devRef .tc main_v3)))
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W,
    Pipeline.PerCore.unscopedBufs_split₀ (fun _ : Dev nD => cfgs) (1 : Fin 2) c winFacts₀1.arr_unscoped]
  show iprop((Pipeline.arrBufs (Ix := Unit) (Name := ℕ) (U := UR sig nD τ) (Lvl := ℕ) spec1 c (fun b => W (Proc.devRef .tc b)) : sProp 𝕄)
      ∗ Pipeline.unscopedRest spec1 c (fun b => W (Proc.devRef .tc b))) = _
  rw [arrBufs1_eq]

/-- Before any write-back an array holds its entry contents; an input array is never written. -/
theorem arrAt1_0 (c : Dev nD) (n : Nat) : (dat1 V c).arrAt 0 n = V c main_v1 := ((dat1 V c).arrAt_in 0 rfl n).trans (A_eq1 V c 0)
theorem arrAt1_1 (c : Dev nD) (n : Nat) : (dat1 V c).arrAt 1 n = V c main_v1 := ((dat1 V c).arrAt_in 1 rfl n).trans (A_eq1 V c 1)
theorem arrAt1_2_zero (c : Dev nD) : (dat1 V c).arrAt 2 0 = V c main_v3 := A_eq1 V c 2

end Region1

end Cert.KernelIdeal.Hand

end
-- ==== Proof.Run.lean ====
import proofs.«103048_j24962349924507_2_alg».proof.Proof.Gen.KernelIdeal.Launch
import proofs.«103048_j24962349924507_2_alg».proof.Proof.Gen.KernelIdeal.Skeleton
import proofs.«103048_j24962349924507_2_alg».proof.Proof.Gen.KernelIdeal.Points
import proofs.«103048_j24962349924507_2_alg».proof.Proof.Gen.KernelIdeal.Loops
import proofs.«103048_j24962349924507_2_alg».proof.Proof.Region0
import proofs.«103048_j24962349924507_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (RegionSeg)

/-! # The whole program's run: the two kernel calls and the host operations between and after them

The buffers' contents at each boundary are a fold from the launch memory: after the first call its three result
arrays hold what its eight write-backs leave; then the two concatenations; after the second call the row sums are in
their array; then the closing host operations. Every unscoped buffer is read off the last of these at the end. -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
abbrev Va0 : (c : Dev nD) → (b : Ref sig .tc) → Buf (Elt F) ((c : Thread nD τ).loc b) := fun c b => W0 m ρ c b
/-- After the first call: its arrays at what the write-backs leave, every other buffer as launched. -/
def W1 (c : Dev nD) : Valuation τ sig (Elt F) :=
  Pipeline.withArrays spec0 c (W0 m ρ c) fun w => (dat0 (Va0 m ρ) c).arrAt w cfg0.N
theorem W1_arr (c : Dev nD) (w : Fin cfg0.W) :
    W1 m ρ c (Proc.devRef .tc (Pipeline.arrRef spec0 w)) = (dat0 (Va0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev Va1 : (c : Dev nD) → (b : Ref sig .tc) → Buf (Elt F) ((c : Thread nD τ).loc b) := fun c b => W1 m ρ c b
theorem hF0 (c : Dev nD) (w : Fin cfg0.W) : (dat0 (Va0 m ρ) c).arrAt w cfg0.N = Va1 m ρ c (Pipeline.arrRef spec0 w) :=
  (W1_arr m ρ c w).symm
theorem hrest0 (c : Dev nD) : ∀ b, b ∉ Finset.univ.image (Pipeline.arrRef spec0) → Va1 m ρ c b = Va0 m ρ c b :=
  fun b hb => W1_of_ne m ρ c b fun w e => hb (Finset.mem_image.mpr ⟨w, Finset.mem_univ _, e⟩)

/-- After the two concatenations (the second call's entry). -/
abbrev W2 : Dev nD → Valuation τ sig (Elt F) := fun c => StableHlo.after hostOps1 (W1 m ρ c)
abbrev Va2 : (c : Dev nD) → (b : Ref sig .tc) → Buf (Elt F) ((c : Thread nD τ).loc b) := fun c b => W2 m ρ c b
/-- After the second call: the row sums in their array, every other buffer as entered. -/
def W3 (c : Dev nD) : Valuation τ sig (Elt F) :=
  Function.update (W2 m ρ c) (Proc.devRef .tc main_v3) ((dat1 (Va2 m ρ) c).arrAt 2 cfg1.N)
abbrev Va3 : (c : Dev nD) → (b : Ref sig .tc) → Buf (Elt F) ((c : Thread nD τ).loc b) := fun c b => W3 m ρ c b
theorem W3_v3 (c : Dev nD) : W3 m ρ c (Proc.devRef .tc main_v3) = (dat1 (Va2 m ρ) c).arrAt 2 cfg1.N := by
  unfold W3; exact Function.update_self _ _ _
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) _ _
/-- After the closing host operations. -/
abbrev W4 : Dev nD → Valuation τ sig (Elt F) := fun c => StableHlo.after hostOps2 (W3 m ρ c)

/-! ## The proof data family and the thread state -/

abbrev admH : (p : Fin 2) → (pcfgs (F := F) p).Adm := fun p => (cfgs p).toPCfg_adm
def pdatsH : (p : Fin 2) → (c : Dev nD) → Dat τ (Elt F) Unit ℕ (UR sig nD τ) ℕ (Pipeline.pin (pcfgs (F := F)) admH p) c
  | ⟨0, _⟩ => fun c => dat0 (Va0 m ρ) c
  | ⟨1, _⟩ => fun c => dat1 (Va2 m ρ) c
abbrev 𝒱H : Variants := Variants.none
abbrev LH : GSem nD τ sig → Finset Unit := fun _ => ∅
abbrev lvH : GSem nD τ sig → Unit → ℕ := fun _ _ => 0
/-- What rides beside the buffers: the generator register at some state, and nothing owed. -/
abbrev RH (c : Dev nD) : sProp 𝕄 := iprop((∃ r, prngReg c r) ∗ ∃ W, owes (c : Thread nD τ) (0 : CellTallies nD τ sig Unit) W)
abbrev hsegH (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnH (c : Dev nD) : sProp 𝕄 := iprop(StableHlo.held (c : Thread nD τ) (Pipeline.ucRefs τ sig) (W4 m ρ c) ∗ ∃ r, prngReg c r)

/-! ## The first call as a segment -/

set_option backward.isDefEq.respectTransparency.types false in
def reg0 : RegionSeg (pcfgs (F := F)) admH (pdatsH m ρ) () defs₀ 𝒱H LH lvH 0 where
  win := launch0.win.to₀
  block_pos := launch0.block_pos
  stage_whole := launch0.stage_whole
  K := PEmpty
  osem k := k.elim
  ho := Pipeline.OwnSemFacts.none _
  hbody c := (body_obligation0 (Va0 m ρ) c).loose
  hwaits := Pipeline.hwaits_of_owed_zero _ _ _ _ LH lvH 0 fun _ _ => rfl
  pre c := iprop(StableHlo.held (c : Thread nD τ) (Pipeline.ucRefs τ sig) (W0 m ρ c) ∗ RH c)
  post c := iprop(StableHlo.held (c : Thread nD τ) (Pipeline.ucRefs τ sig) (W1 m ρ c) ∗ RH c)
  X c := iprop(∃ r, prngReg c r)
  Y c := iprop(∃ r, prngReg c r)
  Z c := Pipeline.unscopedRest (Ix := Unit) (Name := ℕ) (U := UR sig nD τ) (Lvl := ℕ) spec0 c (Va0 m ρ c)
  hentry c := by
    rw [Pipeline.ownSems0_none]
    have hsplit := Pipeline.arrays_of_unscopedBufs (p := 0) (pcfgs (F := F)) admH (pdatsH m ρ) launch0.win launch0.arr_whole c
      ((pdatsH m ρ 0 c).share_full fun _ => rfl) (Va0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsH m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdatsH m ρ) ((pdatsH m ρ 0 c).share_full fun _ => rfl)
      (Va0 m ρ c) (Va1 m ρ c) ((pdatsH m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second call as a segment

Its two input windows read one array: at entry that array's full share is split into the two halves the windows hold,
and at exit the halves, each still at the entry contents, are joined again. -/

/-- Off the row sums' array the valuation after the second call is the one before it. -/
theorem rest1_eq (c : Dev nD) :
    (Pipeline.unscopedRest (Ix := Unit) (Name := ℕ) (U := UR sig nD τ) (Lvl := ℕ) spec1 c (fun b => W3 m ρ c b) : sProp 𝕄)
      = Pipeline.unscopedRest spec1 c (fun b => W2 m ρ c b) := by
  unfold Pipeline.unscopedRest
  refine bigSep_congr fun b hb => ?_
  have hne : b ≠ main_v3 := fun e => (Finset.mem_sdiff.mp hb).2 (Finset.mem_image.mpr ⟨2, Finset.mem_univ _, e.symm⟩)
  show ((c : Thread nD τ).loc b ↦{fullShare} W3 m ρ c (Proc.devRef .tc b) : sProp 𝕄) = ((c : Thread nD τ).loc b ↦{fullShare} W2 m ρ c (Proc.devRef .tc b))
  rw [W3_of_ne m ρ c b hne]

set_option backward.isDefEq.respectTransparency.types false in
def reg1 : RegionSeg (pcfgs (F := F)) admH (pdatsH m ρ) () defs₀ 𝒱H LH lvH 1 where
  win := winFacts₀1
  block_pos := block_pos1
  stage_whole := stage_whole1
  K := PEmpty
  osem k := k.elim
  ho := Pipeline.OwnSemFacts.none _
  hbody c := (body_obligation1 (Va2 m ρ) c).loose
  hwaits := Pipeline.hwaits_of_owed_zero _ _ _ _ LH lvH 1 fun _ _ => rfl
  pre c := iprop(StableHlo.held (c : Thread nD τ) (Pipeline.ucRefs τ sig) (W2 m ρ c) ∗ RH c)
  post c := iprop(StableHlo.held (c : Thread nD τ) (Pipeline.ucRefs τ sig) (W3 m ρ c) ∗ RH c)
  X c := iprop(∃ r, prngReg c r)
  Y c := iprop(∃ r, prngReg c r)
  Z c := Pipeline.unscopedRest (Ix := Unit) (Name := ℕ) (U := UR sig nD τ) (Lvl := ℕ) spec1 c (Va2 m ρ c)
  hentry c := by
    rw [Pipeline.ownSems0_none, show pdatsH m ρ 1 c = dat1 (Va2 m ρ) c from rfl, arrays1_eq, held_split1,
      arrAt1_0, arrAt1_1, arrAt1_2_zero]
    iintro ⟨⟨⟨⟨H1, H3⟩, Hrest⟩, Hp, HO⟩, -, -⟩
    ihave H1' := (pointsTo_share (PosShare.mem_left_op_right fullShare)).1 $$ H1
    icases H1' with ⟨H1l, H1r⟩
    imodintro
    isplitl [H1l H1r H3]
    · isplitl [H1l]; · iexact H1l
      isplitl [H1r]; · iexact H1r
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsH m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdatsH m ρ 1 c).Φ (Fin.last _) = Pipeline.ΦA spec1 c from rfl]; unfold Pipeline.ΦA
    iintro ⟨Hr, Hp⟩
    isplitl [Hp]; · iexact Hp
    isplitr; · iempintro
    iexact Hr
  hexit c := by
    rw [show pdatsH m ρ 1 c = dat1 (Va2 m ρ) c from rfl, arrays1_eq, held_split1, rest1_eq,
      arrAt1_0, arrAt1_1, W3_v3, W3_of_ne m ρ c main_v1 (by decide)]
    iintro ⟨⟨H1l, H1r, H3⟩, HO, HY, Hrest⟩
    ihave H1 := (pointsTo_share (PosShare.mem_left_op_right fullShare)).2 $$ [H1l H1r]
    · isplitl [H1l]; · iexact H1l
      iexact H1r
    imodintro
    isplitl [H1 H3 Hrest]
    · isplitl [H1 H3]
      · isplitl [H1]; · iexact H1
        iexact H3
      iexact Hrest
    isplitl [HY]; · iexact HY
    unfold Pipeline.Dat.owesAt Pipeline.owesWithin
    icases HO with ⟨%W, -, HO⟩; iexists W; iexact HO

/-! ## The program as segments, and the launch -/

abbrev segsH : List (Pipeline.Seg (pcfgs (F := F)) admH (pdatsH m ρ) () defs₀ 𝒱H LH lvH) :=
  [ .region (reg0 m ρ),
    .host (hsegH hostOps1 hostOps1_sub hostOps1_freshH (W1 m ρ)),
    .region (reg1 m ρ),
    .host (hsegH hostOps2 hostOps2_sub hostOps2_freshH (W3 m ρ)) ]

theorem main_runH (c : Dev nD) : main (F := F) c = Pipeline.Seg.run (segsH m ρ) := (main_chain c).trans (by chain_rfl)

set_option backward.isDefEq.respectTransparency.types false in
/-- From any memory with zero counters every weakly fair execution of the program terminates without a fault, and at
    the end every unscoped buffer holds what the fold above says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) admH (pdatsH m ρ) () cellOf_inj emb₁ defs₀ 𝒱H LH lvH m ρ main (segsH m ρ)
    (fun c Q => by rw [main_runH m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TnH m ρ)
    (hch := ⟨fun _ => .rfl, fun _ => .rfl, fun _ => .rfl, fun _ => .rfl, fun c => by
      show iprop(StableHlo.held (c : Thread nD τ) (Pipeline.ucRefs τ sig) (W4 m ρ c) ∗ RH c)
        ⊢ iprop(TnH m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Hand

end
-- ==== Proof.Frame.lean ====
import proofs.«103048_j24962349924507_2_alg».proof.Proof.Gen.KernelIdeal.Launch
import proofs.«103048_j24962349924507_2_alg».proof.Proof.Gen.KernelIdeal.Skeleton
import proofs.«103048_j24962349924507_2_alg».proof.Proof.Gen.KernelIdeal.Points
import proofs.«103048_j24962349924507_2_alg».proof.Proof.Gen.KernelIdeal.Loops
import proofs.«103048_j24962349924507_2_alg».proof.Proof.Run
import proofs.«103048_j24962349924507_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The argument arrays end as launched

Neither call writes an argument (each reads them through input windows only) and no host operation writes one, so the fold of
the buffers' contents, read at an argument, walks back to the launch memory. -/

variable (m : (ℓ : Loc nD τ sig) → Buf (Elt F) ℓ) (ρ : Dev nD → PrngReg)

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (Va0 m ρ) c).arrAt_in 0 rfl _).trans (A_eq0 (Va0 m ρ) c 0))
    _ = m ((c : Thread nD τ).loc main_arg0) := rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (Va0 m ρ) c).arrAt_in 1 rfl _).trans (A_eq0 (Va0 m ρ) c 1))
    _ = m ((c : Thread nD τ).loc main_arg1) := rfl

/-- The program runs to the end without a fault and leaves both argument arrays as launched, whatever the float values. -/
theorem frameH : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucH main_arg0 (by decide))).trans (W4_arg0 m ρ c), (h c _ (mem_ucH main_arg1 (by decide))).trans (W4_arg1 m ρ c)⟩)
    (run_all m ρ)

end Cert.KernelIdeal.Hand

end
-- ==== Proof.Spec.lean ====
/-
  The loss both programs compute, as one function of the two embedding arrays over the extended reals.

  For x : [4096, 512], row r's clamped Euclidean norm is max(sqrt(Σ_k x(r,k)²), ε) and zn x r d = x(r,d) divided by it.
  The 8192 normalised rows are those of x0 followed by those of x1 (zz); sim r k is the inner product of rows r and k;
  pos r = Σ_d zn x0 r d · zn x1 r d; den r = Σ_{k ≠ r} exp(2 · sim r k), the diagonal term replaced by zero.
  The loss is the mean over the 8192 rows of −(pos(r mod 4096) / ½ − log den r), written with the host operations
  both programs end with (tail).
-/
import Idealize.ShloMosaic.PureOps.Ideal
import Idealize.ShloMosaic.PureOps
import Idealize.ShloMosaic.Lib.ValueIdx

noncomputable section

namespace Cert.Spec

open Idealize.ShloMosaic Idealize.ShloMosaic.ValueIdx

abbrev SA : Shape := ⟨2, ![4096, 512]⟩
abbrev SZ : Shape := ⟨2, ![8192, 512]⟩
abbrev SV : Shape := ⟨1, ![4096]⟩
abbrev SR : Shape := ⟨1, ![8192]⟩
abbrev S0 : Shape := ⟨0, ![]⟩

/-- The clamp under the norm: the float literal both programs carry. -/
def eps : EReal := Ideal.ofBits .f32 0x2B8CBCCC#32
/-- The literal 2.0 (the kernel multiplies by it where the reference divides by ½). -/
def two : EReal := Ideal.ofBits .f32 0x40000000#32
/-- The literal ½. -/
def half : EReal := Ideal.ofBits .f32 0x3F000000#32

/-- Row r's sum of squares. -/
def ss (x : SA.Idx → EReal) (r : Fin 4096) : EReal := ∑ k : Fin 512, x (ix2 r k) * x (ix2 r k)
/-- Row r's clamped norm. -/
def nrm (x : SA.Idx → EReal) (r : Fin 4096) : EReal := max (Ideal.sqrt (ss x r)) eps
/-- The normalised entry (r, d). -/
def zn (x : SA.Idx → EReal) (r : Fin 4096) (d : Fin 512) : EReal := Ideal.div (x (ix2 r d)) (nrm x r)
/-- The positive pair's similarity: the inner product of row r of the two normalised arrays. -/
def pos (x0 x1 : SA.Idx → EReal) (r : Fin 4096) : EReal := ∑ d : Fin 512, zn x0 r d * zn x1 r d
/-- The 8192 normalised rows: those of x0, then those of x1. -/
def zz (x0 x1 : SA.Idx → EReal) (r : Fin 8192) (d : Fin 512) : EReal :=
  if h : r.val < 4096 then zn x0 ⟨r.val, h⟩ d else zn x1 ⟨r.val - 4096, by have := r.isLt; omega⟩ d
/-- The similarity of rows r and k. -/
def sim (x0 x1 : SA.Idx → EReal) (r k : Fin 8192) : EReal := ∑ d : Fin 512, zz x0 x1 r d * zz x0 x1 k d
/-- One term of row r's denominator: zero on the diagonal, exp(2·sim) off it. -/
def term (x0 x1 : SA.Idx → EReal) (r k : Fin 8192) : EReal :=
  if r.val = k.val then 0 else Ideal.exp (sim x0 x1 r k * two)
/-- Row r's denominator. -/
def den (x0 x1 : SA.Idx → EReal) (r : Fin 8192) : EReal := ∑ k : Fin 8192, term x0 x1 r k

/-- The positives laid out over the 8192 rows: row j's is pos (j mod 4096). -/
def posv (x0 x1 : SA.Idx → EReal) : SR.Idx → EReal :=
  fun j => pos x0 x1 ⟨(j 0).val % 4096, Nat.mod_lt _ (by norm_num)⟩
/-- The denominators as an array. -/
def denv (x0 x1 : SA.Idx → EReal) : SR.Idx → EReal := fun j => den x0 x1 (j 0)

/-- The host operations both programs end with: −(p / ½ − log d), summed over the 8192 rows from zero, divided by 8192. -/
def tail (hb : S0.BroadcastsInDim SR (![] : Fin 0 → Fin SR.rank)) (hr : SR.ReducesTo [0] S0) (h0 : 0 < S0.numel)
    (p d : FVec Ideal SR .f32) : FVec Ideal S0 .f32 :=
  Host.divf (F := Ideal)
    (Host.reduceAdd (F := Ideal)
      (Host.negf (F := Ideal) (subf (F := Ideal) (Host.divf (F := Ideal) p (broadcastInDim SR ![] hb (constant (F := Ideal) S0 .f32 0x3F000000#32))) (Host.log (F := Ideal) d)))
      (constant (F := Ideal) S0 .f32 0x00000000#32) hr h0)
    (constant (F := Ideal) S0 .f32 0x46000000#32)

end Cert.Spec

end
-- ==== Proof.LibColumns.lean ====
/-
  Small layout and reduction facts read by coordinates, at the exact values: a column broadcast along rows, a vector
  kept as a column, a lane sum along rows, and a maximum along columns.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibColumns

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of an `[a, b]` matrix along its rows, at the exact values and read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- A maximum of an `[a, b]` matrix along its columns, at the exact values and read at column `c`: the fold of max from
    the accumulator's value over the column. -/
theorem multiReduction_max_cols_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (c : Fin b) :
    multiReduction .maximumf [0] ⟨1, ![b]⟩ src acc h hφ hacc (ix1 c)
      = (Finset.univ : Finset (Fin a)).fold max (Ideal.ofBits φ acc) (fun k => src (ix2 k c)) := by
  refine (Ideal.multiReduction_maximumf_single src acc h hφ hacc (ix1 c)).trans ?_
  refine congrArg (Finset.fold _ _ · _) (funext fun k => congrArg src (funext fun ax => Fin.ext ?_))
  match ax with
  | ⟨0, _⟩ => rfl
  | ⟨1, _⟩ => rfl

end Cert.LibColumns

end
-- ==== Proof.Pay2.lean ====
/-
  One trip of the second kernel's loop, read at a row.

  The kernel holds a block of 512 normalised rows (block g of 16) and, on trip k of 8, a chunk of 1024 of the 8192
  normalised rows. It multiplies the block by the chunk transposed (the inner products of every block row with every
  chunk row, into a zero accumulator), doubles, exponentiates, replaces by zero the entries whose row number g·512 + p
  equals their column number k·1024 + q, sums each row over the chunk's 1024 columns, and adds the row sums to the
  carried total. The row and column numbers are compared as 32-bit words; both are below 8192, so the words are equal
  exactly when the numbers are. At row p the result is the carried total at p plus the sum over q of those terms.
-/
import proofs.«103048_j24962349924507_2_alg».proof.Proof.Gen.KernelIdeal.Skeleton
import proofs.«103048_j24962349924507_2_alg».proof.Proof.Spec
import proofs.«103048_j24962349924507_2_alg».proof.Proof.LibColumns
import Idealize.ShloMosaic.Lib.ValueIdx
import Idealize.ShloMosaic.Lib.Pipeline.Value
import Idealize.ShloMosaic.PureOps.Ideal.Laws

noncomputable section

namespace Cert.Pay2

open Cert.KernelIdeal Cert.KernelIdeal.Gen Idealize.ShloMosaic Idealize.ShloMosaic.ValueIdx

/-- Two numbers below 2³² have the same 32-bit word only if they are equal. -/
theorem ofNat32_inj {a b : ℕ} (ha : a < 4294967296) (hb : b < 4294967296) (e : BitVec.ofNat 32 a = BitVec.ofNat 32 b) : a = b := by
  have e2 := congrArg BitVec.toNat e
  rw [BitVec.toNat_ofNat, BitVec.toNat_ofNat, Nat.mod_eq_of_lt (by omega), Nat.mod_eq_of_lt (by omega)] at e2
  exact e2

/-- The trip's induction word is the trip number. -/
theorem iv_word (k : ℕ) : Scf.iv 0#32 1#32 k = BitVec.ofNat 32 k := by
  unfold Scf.iv
  rw [BitVec.zero_add, BitVec.mul_one]

/-- The diagonal test of the kernel: the row number g·512 + p and the column number k·1024 + q as 32-bit words
    are equal exactly when the numbers are. -/
theorem mask_word (g : ℕ) (hg : g < 16) (k : ℕ) (hk : k < 8) (p : Fin 512) (q : Fin 1024) :
    IntOp.cmpi .eq (IntOp.addi (Scalar.muli (BitVec.ofNat 32 g) 512#32) (BitVec.ofNat 32 p.val))
        (IntOp.addi (Scalar.muli (Scf.iv 0#32 1#32 k) 1024#32) (BitVec.ofNat 32 q.val))
      = if g * 512 + p.val = k * 1024 + q.val then 1#1 else 0#1 := by
  have hp := p.isLt
  have hq := q.isLt
  have e1 : IntOp.addi (Scalar.muli (BitVec.ofNat 32 g) 512#32) (BitVec.ofNat 32 p.val) = BitVec.ofNat 32 (g * 512 + p.val) := by
    unfold IntOp.addi Scalar.muli IntOp.muli
    rw [BitVec.ofNat_add, BitVec.ofNat_mul]
  have e2 : IntOp.addi (Scalar.muli (Scf.iv 0#32 1#32 k) 1024#32) (BitVec.ofNat 32 q.val) = BitVec.ofNat 32 (k * 1024 + q.val) := by
    unfold IntOp.addi Scalar.muli IntOp.muli
    rw [iv_word, BitVec.ofNat_add, BitVec.ofNat_mul]
  rw [e1, e2]
  unfold IntOp.cmpi
  by_cases h : g * 512 + p.val = k * 1024 + q.val
  · rw [if_pos h, h]; simp
  · rw [if_neg h]
    have hne : BitVec.ofNat 32 (g * 512 + p.val) ≠ BitVec.ofNat 32 (k * 1024 + q.val) :=
      fun e => h (ofNat32_inj (by omega) (by omega) e)
    rw [show (BitVec.ofNat 32 (g * 512 + p.val) == BitVec.ofNat 32 (k * 1024 + q.val)) = false from beq_eq_false_iff_ne.mpr hne]
    rfl

/-- The matrix product's index maps: the left operand is read at the result's row, the right operand at the result's
    column (as a row of the chunk), both at the contracted feature. -/
theorem lhs_0 (i : S512x1024.Idx) (c : dot_S512x512_S1024x512_S512x1024_1_1_0_0_n_n.contr.Idx) :
    (dot_S512x512_S1024x512_S512x1024_1_1_0_0_n_n.lhsIdx i c 0).val = (i 0).val := by
  unfold DotDims.lhsIdx
  rw [dif_neg (show ¬(0 : Fin S512x512.rank) ∈ dot_S512x512_S1024x512_S512x1024_1_1_0_0_n_n.lhsBatch by decide),
    dif_pos (show (0 : Fin S512x512.rank) ∈ dot_S512x512_S1024x512_S512x1024_1_1_0_0_n_n.lhsNonContracting by decide)]
  rfl
theorem lhs_1 (i : S512x1024.Idx) (c : dot_S512x512_S1024x512_S512x1024_1_1_0_0_n_n.contr.Idx) :
    (dot_S512x512_S1024x512_S512x1024_1_1_0_0_n_n.lhsIdx i c 1).val = (c ⟨0, by decide⟩).val :=
  dot_S512x512_S1024x512_S512x1024_1_1_0_0_n_n.lhsIdx_val_of_single rfl i c
theorem rhs_0 (i : S512x1024.Idx) (c : dot_S512x512_S1024x512_S512x1024_1_1_0_0_n_n.contr.Idx) :
    (dot_S512x512_S1024x512_S512x1024_1_1_0_0_n_n.rhsIdx i c 0).val = (i 1).val := by
  unfold DotDims.rhsIdx
  rw [dif_neg (show ¬(0 : Fin S1024x512.rank) ∈ dot_S512x512_S1024x512_S512x1024_1_1_0_0_n_n.rhsBatch by decide),
    dif_pos (show (0 : Fin S1024x512.rank) ∈ dot_S512x512_S1024x512_S512x1024_1_1_0_0_n_n.rhsNonContracting by decide)]
  rfl
theorem rhs_1 (i : S512x1024.Idx) (c : dot_S512x512_S1024x512_S512x1024_1_1_0_0_n_n.contr.Idx) :
    (dot_S512x512_S1024x512_S512x1024_1_1_0_0_n_n.rhsIdx i c 1).val = (c ⟨0, by decide⟩).val :=
  dot_S512x512_S1024x512_S512x1024_1_1_0_0_n_n.rhsIdx_val_of_single rfl i c

/-- The product of the row block with the column chunk, contracted over the 512 features into a zero accumulator,
    at (p, q): the inner product of row p of the block and row q of the chunk. -/
theorem mm_apply (a : FVec Ideal S512x512 .bf16) (b : FVec Ideal S1024x512 .bf16) (p : Fin 512) (q : Fin 1024) :
    FloatOps.matmul dot_S512x512_S1024x512_S512x1024_1_1_0_0_n_n none a b (constant S512x1024 .f32 0x00000000#32) (ix2 p q)
      = ∑ d : Fin 512, a (ix2 p d) * b (ix2 q d) := by
  rw [Ideal.matmul_constant_zero_apply,
    ← Equiv.sum_comp (ValueIdx.contrEquiv1 dot_S512x512_S1024x512_S512x1024_1_1_0_0_n_n 512 rfl rfl).symm]
  refine Finset.sum_congr rfl fun d _ => ?_
  have hd := ValueIdx.contrEquiv1_symm_val dot_S512x512_S1024x512_S512x1024_1_1_0_0_n_n 512 rfl rfl d
  have el : dot_S512x512_S1024x512_S512x1024_1_1_0_0_n_n.lhsIdx (ix2 p q)
      ((ValueIdx.contrEquiv1 dot_S512x512_S1024x512_S512x1024_1_1_0_0_n_n 512 rfl rfl).symm d) = ix2 p d :=
    funext fun ax => Fin.ext (by
      match ax with
      | ⟨0, _⟩ => exact lhs_0 _ _
      | ⟨1, _⟩ => exact (lhs_1 _ _).trans hd)
  have er : dot_S512x512_S1024x512_S512x1024_1_1_0_0_n_n.rhsIdx (ix2 p q)
      ((ValueIdx.contrEquiv1 dot_S512x512_S1024x512_S512x1024_1_1_0_0_n_n 512 rfl rfl).symm d) = ix2 q d :=
    funext fun ax => Fin.ext (by
      match ax with
      | ⟨0, _⟩ => exact rhs_0 _ _
      | ⟨1, _⟩ => exact (rhs_1 _ _).trans hd)
  rw [el, er]

/-- One trip of the second kernel's loop, at row p of the block: the carried total plus the chunk's 1024 terms,
    each zero where the column number k·1024 + q is the row number g·512 + p and exp(2 · ⟨row p, chunk row q⟩) elsewhere. -/
theorem pay2_apply (i : grid1.Coords) (v0 : FVec Ideal S512x512 .bf16) (k : Fin k1_t1_loop.trips) (acc : FVec Ideal S512 .f32)
    (v9 : FVec Ideal S1024x512 .bf16) (p : Fin 512) :
    k1_pay2 (F := Ideal) i v0 k acc v9 (ix1 p)
      = acc (ix1 p) + ∑ q : Fin 1024, (if (i 0).val * 512 + p.val = k.val * 1024 + q.val then (0 : EReal)
          else Ideal.exp ((∑ d : Fin 512, v0 (ix2 p d) * v9 (ix2 q d)) * Cert.Spec.two)) := by
  have hg : (i 0).val < 16 := (i 0).isLt
  have hk : k.val < 8 := Nat.lt_of_lt_of_le k.isLt k1_t1_abs.2.1
  unfold k1_pay2
  dsimp only
  refine congrArg (acc (ix1 p) + ·) ?_
  refine (Cert.LibColumns.multiReduction_add_rows_apply _ 0x00000000#32 reduces_S512x1024_S512 (.inl rfl) rfl p).trans ?_
  refine Finset.sum_congr rfl fun q _ => ?_
  show Scalar.select (IntOp.cmpi .eq (IntOp.addi (Scalar.muli (BitVec.ofNat 32 (i 0).val) 512#32) (iota .tc S512x1024 32 [0] iota_S512x1024_d0_w32 (ix2 p q)))
        (IntOp.addi (Scalar.muli (Scf.iv 0#32 1#32 k.val) 1024#32) (iota .tc S512x1024 32 [1] iota_S512x1024_d1_w32 (ix2 p q))))
      (Ideal.ofBits .f32 0x00000000#32)
      (Ideal.exp (FloatOps.matmul dot_S512x512_S1024x512_S512x1024_1_1_0_0_n_n none (shapeCast S512x512 v0 shapeCasts_S512x512_S512x512)
          (shapeCast S1024x512 v9 shapeCasts_S1024x512_S1024x512) (constant S512x1024 .f32 0x00000000#32) (ix2 p q) * Cert.Spec.two)) = _
  rw [iota_single_apply, iota_single_apply, shapeCast_self, shapeCast_self, mm_apply]
  refine (congrArg (fun c => Scalar.select c _ _) (mask_word (i 0).val hg k.val hk p q)).trans ?_
  by_cases h : (i 0).val * 512 + p.val = k.val * 1024 + q.val
  · rw [if_pos h, if_pos h, select_one, Ideal.ofBits_zero_f32]
  · rw [if_neg h, if_neg h, select_zero]

end Cert.Pay2

end
-- ==== Proof.Region1Loop.lean ====
import proofs.«103048_j24962349924507_2_alg».proof.Proof.Gen.KernelIdeal.Launch
import proofs.«103048_j24962349924507_2_alg».proof.Proof.Gen.KernelIdeal.Skeleton
import proofs.«103048_j24962349924507_2_alg».proof.Proof.Gen.KernelIdeal.Points
import proofs.«103048_j24962349924507_2_alg».proof.Proof.Gen.KernelIdeal.Loops
import proofs.«103048_j24962349924507_2_alg».proof.Proof.Region1
import proofs.«103048_j24962349924507_2_alg».proof.Proof.Spec
import proofs.«103048_j24962349924507_2_alg».proof.Proof.Pay2
import Idealize.ShloMosaic.Lib.Pipeline.Value
import Idealize.ShloMosaic.Lib.ValueIdx
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # What the eight trips add up, at the exact values

Z is the array of the 8192 normalised rows as the second call finds it. Row r's accumulator after k trips is the sum over
the first k chunks of 1024 columns of the masked exponential similarities of row r. -/

/-- The inner product of rows r and k of Z. -/
def simZ (Z : FVec Ideal S8192x512 .bf16) (r k : Fin 8192) : EReal := ∑ d : Fin 512, Z (ix2 r d) * Z (ix2 k d)
/-- One term of row r's sum: zero on the diagonal, the exponential of twice the inner product off it. -/
def termZ (Z : FVec Ideal S8192x512 .bf16) (r k : Fin 8192) : EReal :=
  if r.val = k.val then 0 else Ideal.exp (simZ Z r k * Cert.Spec.two)
/-- The terms of chunk c of the columns. -/
def chunkZ (Z : FVec Ideal S8192x512 .bf16) (r : Fin 8192) (c : Fin 8) : EReal :=
  ∑ q : Fin 1024, termZ Z r ⟨c.val * 1024 + q.val, by have := c.isLt; have := q.isLt; omega⟩
/-- The running sum after k chunks. -/
def accZ (Z : FVec Ideal S8192x512 .bf16) (r : Fin 8192) : ℕ → EReal
  | 0 => 0
  | k + 1 => if h : k < 8 then accZ Z r k + chunkZ Z r ⟨k, h⟩ else accZ Z r k

theorem accZ_succ (Z : FVec Ideal S8192x512 .bf16) (r : Fin 8192) (k : ℕ) (h : k < 8) :
    accZ Z r (k + 1) = accZ Z r k + chunkZ Z r ⟨k, h⟩ := by
  rw [accZ, dif_pos h]

theorem trips_eq : k1_t1_loop.trips = 8 := by decide

theorem hz2 : (![0, 0] : Fin 2 → Nat) = fun _ => 0 := funext fun a => by fin_cases a <;> rfl

/-- One trip of the loop is its payload of the carried value and the chunk of rows it loads. -/
theorem tripR_eq {F : FTy → Type} [FloatOps F] (c : Dev nD) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (v0 : Vec F S512x512 .bf16) (X2 : BufTy.Contents (Elt F) arg2.view.ty) (k : Fin k1_t1_loop.trips) (acc : FVec F S512 .f32) :
    tripR_k1_t1 (F := F) Variants.none c none i arg1 harg1 arg2 harg2 arg3 harg3 v0 X2 k acc
      = k1_pay2 i v0 k acc (View.readAt (Elt F) arg2.view (Rect.unit (s := S8192x512) (k1_off1 k) S1024x512.size (k1_off1_inb k)).toLoadRect X2) := by
  unfold tripR_k1_t1 trip_k1_t1
  rfl

/-- The row block as loaded is the row block. -/
theorem v0_read (arg1 : Memref sig .tc .vmem S512x512 .bf16) (harg1 : arg1.IsWhole) (x0 : Vec Ideal S512x512 .bf16) :
    View.readAt (Elt Ideal) arg1.view r1_in.toLoadRect (harg1.unread x0) = x0 := by
  funext y
  exact (harg1.readAt_unread x0 _ y).trans (congrFun (View.ld_unit_zero (S := S512x512) hz2 inb_S512x512_S512x512_0_0 x0) y)

/-- The chunk loaded at trip k is rows 1024·k … 1024·k + 1023 of the whole array. -/
theorem v9_read (arg2 : Memref sig .tc .vmem S8192x512 .bf16) (harg2 : arg2.IsWhole) (Z : Vec Ideal S8192x512 .bf16)
    (k : Fin k1_t1_loop.trips) (q : Fin 1024) (d : Fin 512) (r : Fin 8192) (hr : r.val = k.val * 1024 + q.val) :
    View.readAt (Elt Ideal) arg2.view (Rect.unit (s := S8192x512) (k1_off1 k) S1024x512.size (k1_off1_inb k)).toLoadRect (harg2.unread Z) (ix2 q d)
      = Z (ix2 r d) := by
  refine (harg2.readAt_unread Z _ _).trans (congrArg Z (funext fun a => Fin.ext ?_))
  match a with
  | ⟨0, _⟩ =>
    simp only [LoadRect.idx_apply, Rect.off_unit, Rect.stride_unit, Nat.one_mul, k1_off1_eq]
    show 1024 * k.val + q.val = r.val
    omega
  | ⟨1, _⟩ =>
    simp only [LoadRect.idx_apply, Rect.off_unit, Rect.stride_unit, Nat.one_mul, k1_off1_eq]
    show 0 + d.val = d.val
    omega

/-- The carried value before trip n, at row p of the block at grid coordinate i: the running sum of row 512·i + p over
    the first n chunks. -/
theorem loop_state (c : Dev nD) (i : grid1.Coords) (arg1 : Memref sig .tc .vmem S512x512 .bf16) (harg1 : arg1.IsWhole)
    (arg2 : Memref sig .tc .vmem S8192x512 .bf16) (harg2 : arg2.IsWhole) (arg3 : Memref sig .tc .vmem S512 .f32) (harg3 : arg3.IsWhole)
    (x0 : Vec Ideal S512x512 .bf16) (Z : Vec Ideal S8192x512 .bf16) (p : Fin 512) (r : Fin 8192) (hr : r.val = (i 0).val * 512 + p.val)
    (hx0 : ∀ d : Fin 512, x0 (ix2 p d) = Z (ix2 r d)) :
    ∀ n : ℕ, n ≤ 8 →
      st_k1_t1 (F := Ideal) Variants.none c none i arg1 harg1 arg2 harg2 arg3 harg3
        (View.readAt (Elt Ideal) arg1.view r1_in.toLoadRect (harg1.unread x0)) (harg2.unread Z) k1_pay1 n (ix1 p) = accZ Z r n
  | 0, _ => by
    show k1_pay1 (F := Ideal) (ix1 p) = 0
    exact Ideal.ofBits_zero_f32
  | n + 1, hn => by
    have hn8 : n < 8 := by omega
    have ih := loop_state c i arg1 harg1 arg2 harg2 arg3 harg3 x0 Z p r hr hx0 n (by omega)
    have hk : n < k1_t1_loop.trips := by rw [trips_eq]; exact hn8
    have hs := st_k1_t1_succ (F := Ideal) Variants.none c none i arg1 harg1 arg2 harg2 arg3 harg3
      (View.readAt (Elt Ideal) arg1.view r1_in.toLoadRect (harg1.unread x0)) (harg2.unread Z) k1_pay1 ⟨n, hk⟩
    rw [show (⟨n, hk⟩ : Fin k1_t1_loop.trips).val + 1 = n + 1 from rfl] at hs
    rw [hs, tripR_eq, Cert.Pay2.pay2_apply, ih, accZ_succ Z r n hn8, v0_read]
    refine congrArg (accZ Z r n + ·) (Finset.sum_congr rfl fun q _ => ?_)
    unfold termZ simZ
    refine if_congr (by rw [hr]) rfl ?_
    refine congrArg (fun s => Ideal.exp (s * Cert.Spec.two)) (Finset.sum_congr rfl fun d _ => ?_)
    rw [hx0 d, v9_read arg2 harg2 Z ⟨n, hk⟩ q d ⟨n * 1024 + q.val, by have := q.isLt; omega⟩ rfl]

end Cert.KernelIdeal.Hand

end
-- ==== Proof.Region1Blocks.lean ====
/- The second pallas_call's blocks, at the extended reals. Both input windows read the array of the 8192 normalised
   rows: window 0's block at point t is rows 512·t … 512·t + 511 of it, window 1's block is the whole array at every
   point. The output's blocks of 512 entries tile its array of 8192, point t writing entries 512·t … 512·t + 511; so
   if what each point leaves is, entry by entry, one function G of the entry's position in the array, the array ends
   as G. -/
import proofs.«103048_j24962349924507_2_alg».proof.Proof.Region1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- The grid has one axis, and point t's coordinate on it is t. -/
theorem grid1_coord : ∀ t : Fin cfg1.N, ((grid1.coords t) 0).val = t.val :=
  (by decide +kernel : ∀ t : Fin grid1.N, ((grid1.coords t) 0).val = t.val)

/-- The index maps over the grid: at point t the row block and the output are on block t, the whole-array window on
    block 0. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = t.val :=
  (by decide +kernel : ∀ t : Fin grid1.N, _)

section Blocks
-- the TensorCore's buffer contents when the call is entered
variable (V : (c : Dev nD) → (b : Ref sig .tc) → Buf (Elt Ideal) ((c : Thread nD τ).loc b))

/-- Window 0's block at point t is rows 512·t … 512·t + 511 of the array of normalised rows. -/
theorem iblk1_0_apply (c : Dev nD) (t : Fin cfg1.N) (x : S512x512.Idx) (k : S8192x512.Idx)
    (hk0 : (k 0).val = 512 * t.val + (x 0).val) (hk1 : (k 1).val = (x 1).val) :
    (iblk1 V c 0 t : Vec Ideal S512x512 .bf16) x = (V c main_v1 : S8192x512.Idx → EReal) k := by
  obtain ⟨e0, e1, -⟩ := idx_facts1 t
  unfold iblk1
  rw [View.read_apply]
  show V c main_v1 _ = V c main_v1 _
  congr 1
  funext a
  apply Fin.ext
  match a with
  | ⟨0, _⟩ => show win1_0.index t 0 * 512 + 1 * (x 0).val = (k 0).val; rw [e0, hk0]; omega
  | ⟨1, _⟩ => show win1_0.index t 1 * 512 + 1 * (x 1).val = (k 1).val; rw [e1, hk1]; omega

/-- Window 1's block at every point is the whole array of normalised rows. -/
theorem iblk1_1_apply (c : Dev nD) (t : Fin cfg1.N) (x : S8192x512.Idx) :
    (iblk1 V c 1 t : Vec Ideal S8192x512 .bf16) x = (V c main_v1 : S8192x512.Idx → EReal) x := by
  obtain ⟨-, -, e0, e1, -⟩ := idx_facts1 t
  unfold iblk1
  rw [View.read_apply]
  show V c main_v1 _ = V c main_v1 _
  congr 1
  funext a
  apply Fin.ext
  match a with
  | ⟨0, _⟩ => show win1_1.index t 0 * 8192 + 1 * (x 0).val = (x 0).val; rw [e0]; omega
  | ⟨1, _⟩ => show win1_1.index t 1 * 512 + 1 * (x 1).val = (x 1).val; rw [e1]; omega

/-- The same as an equation of functions. -/
theorem iblk1_1_eq (c : Dev nD) (t : Fin cfg1.N) :
    (iblk1 V c 1 t : Vec Ideal S8192x512 .bf16) = (V c main_v1 : S8192x512.Idx → EReal) :=
  funext fun x => iblk1_1_apply V c t x

/-! ## The output array from its blocks -/

/-- If what point t leaves at entry p of its block is G at entry 512·t + p of the array, point t writes back block t
    of G. -/
theorem flushed1_2_eq (c : Dev nD) (G : S8192.Idx → EReal)
    (hG : ∀ (t : Fin cfg1.N) (p : Fin 512) (r : Fin 8192), r.val = 512 * t.val + p.val →
      after1_2at (F := Ideal) V c t (ix1 p) = G (ix1 r)) (t : Fin cfg1.N) :
    (dat1 (F := Ideal) V c).flushed 2 t = ((cfg1.win 2).blk t).view.read (Elt Ideal) G := by
  show (cfg1.win 2).cut (grid1.coords t) ((dat1 V c).after 2 t) = _
  rw [after1_2]
  obtain ⟨-, -, -, -, e0⟩ := idx_facts1 t
  have hN : cfg1.N = 16 := N_1
  have ht : t.val < 16 := Nat.lt_of_lt_of_eq t.isLt hN
  funext j
  obtain ⟨p, rfl⟩ : ∃ (p : Fin 512), j = ix1 p := ⟨j 0, eq_ix1 j⟩
  show after1_2at V c t (ix1 p) = G (((cfg1.win 2).blk t).view.emb (ix1 p))
  have hr : 512 * t.val + p.val < 8192 := by have := p.isLt; omega
  have hE : ((cfg1.win 2).blk t).view.emb (ix1 p) = ix1 (⟨512 * t.val + p.val, hr⟩ : Fin 8192) := by
    funext a
    apply Fin.ext
    match a with
    | ⟨0, _⟩ => show win1_2.index t 0 * 512 + 1 * p.val = 512 * t.val + p.val; rw [e0]; omega
  rw [hE]
  exact hG t p _ rfl

/-- An index of the array is in point t's block iff it is in the block's range. -/
theorem mem_blk1_2 (t : Fin cfg1.N) (i : S8192.Idx) :
    i ∈ ((cfg1.win 2).blk t).view.set ↔ ∀ a : Fin 1, win1_2.index t a * S512.size a ≤ (i a).val ∧ (i a).val < win1_2.index t a * S512.size a + S512.size a := by
  show i ∈ ((View.whole main_v3).slice (win1_2.rect t)).set ↔ _
  rw [View.set_slice_whole, Rect.mem_set_unit]
  exact Iff.rfl

/-- Every index is in some point's block: entry r is in the block of point r / 512. -/
theorem covered1_2 (i : S8192.Idx) :
    ∃ t : Fin cfg1.N, (cfg1.win 2).flush t = true ∧ i ∈ ((cfg1.win 2).blk t).view.set := by
  have hi0 : (i 0).val < 8192 := (i 0).isLt
  have hN : cfg1.N = 16 := N_1
  obtain ⟨t, ht⟩ : ∃ t : Fin cfg1.N, t.val = (i 0).val / 512 := ⟨⟨(i 0).val / 512, by rw [hN]; omega⟩, rfl⟩
  obtain ⟨-, -, -, -, e0⟩ := idx_facts1 t
  refine ⟨t, flush1_2 t, ?_⟩
  rw [mem_blk1_2]
  intro a
  match a with
  | ⟨0, _⟩ => show win1_2.index t 0 * 512 ≤ (i 0).val ∧ (i 0).val < win1_2.index t 0 * 512 + 512; rw [e0, ht]; omega

/-- After the 16 points the output array is G, for any G that every point's block is a block of. -/
theorem arr1_2 (c : Dev nD) (G : S8192.Idx → EReal)
    (hG : ∀ (t : Fin cfg1.N) (p : Fin 512) (r : Fin 8192), r.val = 512 * t.val + p.val →
      after1_2at (F := Ideal) V c t (ix1 p) = G (ix1 r)) :
    (dat1 (F := Ideal) V c).arrAt 2 cfg1.N = G :=
  (dat1 V c).arrAt_eq_of_cover 2 G (fun t _ => flushed1_2_eq V c G hG t) covered1_2

end Blocks

end Cert.KernelIdeal.Hand

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.Tiles.lean ====
/-
  Row r's denominator, added up the way the kernel does it: the 8192 columns in 8 chunks of 1024, the chunk sums
  joined to a running total that starts at zero.

  Column k = 1024·c + q is position q of chunk c, so the sum over all columns is the sum over the chunks of the
  chunk sums; the running total after chunk c is the sum of the chunks 0, …, c, and after the eighth chunk it is the
  whole denominator. Only the commutative-monoid laws of addition on the extended reals are used.
-/
import proofs.«103048_j24962349924507_2_alg».proof.Proof.Spec
import proofs.«103048_j24962349924507_2_alg».proof.Proof.LibTiles

noncomputable section

namespace Cert.Spec

open Idealize.ShloMosaic Idealize.ShloMosaic.ValueIdx

/-- Chunk c of row r's denominator: the terms of the columns 1024·c, …, 1024·c + 1023. -/
def chunk (x0 x1 : SA.Idx → EReal) (r : Fin 8192) (c : Fin 8) : EReal :=
  ∑ q : Fin 1024, term x0 x1 r ⟨c.val * 1024 + q.val, by have := c.isLt; have := q.isLt; omega⟩

/-- The running total: zero before the first chunk, and chunk k added at step k + 1 (nothing is added past the eighth). -/
def accK (x0 x1 : SA.Idx → EReal) (r : Fin 8192) : ℕ → EReal
  | 0 => 0
  | k + 1 => if h : k < 8 then accK x0 x1 r k + chunk x0 x1 r ⟨k, h⟩ else accK x0 x1 r k

theorem accK_zero (x0 x1 : SA.Idx → EReal) (r : Fin 8192) : accK x0 x1 r 0 = 0 := rfl

theorem accK_succ (x0 x1 : SA.Idx → EReal) (r : Fin 8192) (k : ℕ) (h : k < 8) :
    accK x0 x1 r (k + 1) = accK x0 x1 r k + chunk x0 x1 r ⟨k, h⟩ := by
  rw [accK, dif_pos h]

/-- After k chunks the running total is the sum of the chunks 0, …, k − 1. -/
theorem accK_eq_sum (x0 x1 : SA.Idx → EReal) (r : Fin 8192) :
    ∀ (k : ℕ) (hk : k ≤ 8), accK x0 x1 r k = ∑ c : Fin k, chunk x0 x1 r (Fin.castLE hk c)
  | 0, _ => by rw [accK_zero, Fin.sum_univ_zero]
  | k + 1, hk => by
    rw [accK_succ x0 x1 r k hk, accK_eq_sum x0 x1 r k (Nat.le_of_lt hk), Fin.sum_univ_castSucc]
    rfl

/-- The denominator is the running total after the eighth chunk. -/
theorem den_eq_accK (x0 x1 : SA.Idx → EReal) (r : Fin 8192) : den x0 x1 r = accK x0 x1 r 8 := by
  rw [accK_eq_sum x0 x1 r 8 le_rfl]
  unfold den chunk
  refine (Cert.LibTiles.sum_tiles_mul 8 1024 (fun k : Fin (8 * 1024) => term x0 x1 r k)
    (fun j p => by have := j.isLt; have := p.isLt; omega)).symm.trans ?_
  refine Finset.sum_congr rfl fun c _ => Finset.sum_congr rfl fun q _ => congrArg (term x0 x1 r) (Fin.ext ?_)
  show 1024 * c.val + q.val = c.val * 1024 + q.val
  omega

end Cert.Spec

end
-- ==== Proof.Region1Value.lean ====
import proofs.«103048_j24962349924507_2_alg».proof.Proof.Gen.KernelIdeal.Launch
import proofs.«103048_j24962349924507_2_alg».proof.Proof.Gen.KernelIdeal.Skeleton
import proofs.«103048_j24962349924507_2_alg».proof.Proof.Gen.KernelIdeal.Points
import proofs.«103048_j24962349924507_2_alg».proof.Proof.Gen.KernelIdeal.Loops
import proofs.«103048_j24962349924507_2_alg».proof.Proof.Region1Loop
import proofs.«103048_j24962349924507_2_alg».proof.Proof.Region1Blocks
import proofs.«103048_j24962349924507_2_alg».proof.Proof.Tiles
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The row sums' array after the second call, at the exact values -/

section

variable (V : (c : Dev nD) → (b : Ref sig .tc) → Buf (Elt Ideal) ((c : Thread nD τ).loc b))

theorem hz1 : (![0] : Fin 1 → Nat) = fun _ => 0 := funext fun a => by fin_cases a; rfl

/-- What grid point t leaves at position p of the output block: the full running sum of row 512·t + p. -/
theorem after1_2at_apply (c : Dev nD) (t : Fin cfg1.N) (p : Fin 512) (r : Fin 8192) (hr : r.val = 512 * t.val + p.val) :
    after1_2at (F := Ideal) V c t (ix1 p) = accZ (V c main_v1 : S8192x512.Idx → EReal) r 8 := by
  unfold after1_2at out1_2
  rw [View.canon_unit_zero (S := S512) hz1 inb_S512_S512_0]
  unfold loopOut
  rw [iblk1_1_eq V c t, show Scf.trips k1_t1_loop.lb k1_t1_loop.ub k1_t1_loop.st = 8 from trips_eq]
  refine loop_state c (grid1.coords t) _ _ _ _ _ _ (iblk1 V c 0 t) (V c main_v1 : S8192x512.Idx → EReal) p r ?_ ?_ 8 le_rfl
  · rw [grid1_coord t, hr]; omega
  · intro d
    exact iblk1_0_apply V c t (ix2 p d) (ix2 r d) (by show r.val = 512 * t.val + p.val; exact hr) rfl

/-- The row sums' array after the sixteen grid points. -/
theorem arr1_2_value (c : Dev nD) :
    (dat1 (F := Ideal) V c).arrAt 2 cfg1.N = (fun j => accZ (V c main_v1 : S8192x512.Idx → EReal) (j 0) 8 : S8192.Idx → EReal) :=
  arr1_2 V c _ fun t p r hr => after1_2at_apply V c t p r hr

end

/-! ## The running sum is the specification's -/

open Cert.Spec in
/-- When Z is the array of normalised rows of x0 and x1, row r's running sum over all eight chunks is the denominator. -/
theorem accZ_eq_den (x0 x1 : SA.Idx → EReal) (Z : FVec Ideal S8192x512 .bf16) (hZ : ∀ (r : Fin 8192) (d : Fin 512), Z (ix2 r d) = zz x0 x1 r d)
    (r : Fin 8192) : accZ Z r 8 = den x0 x1 r := by
  have hsim : ∀ k : Fin 8192, simZ Z r k = sim x0 x1 r k := fun k => by
    unfold simZ sim; exact Finset.sum_congr rfl fun d _ => by rw [hZ r d, hZ k d]
  have hterm : ∀ k : Fin 8192, termZ Z r k = term x0 x1 r k := fun k => by
    unfold termZ term; rw [hsim k]
  have hchunk : ∀ c : Fin 8, chunkZ Z r c = chunk x0 x1 r c := fun c => by
    unfold chunkZ chunk; exact Finset.sum_congr rfl fun q _ => hterm _
  have hacc : ∀ n : ℕ, n ≤ 8 → accZ Z r n = accK x0 x1 r n := by
    intro n
    induction n with
    | zero => intro _; rfl
    | succ n ih =>
      intro hn
      have hn8 : n < 8 := by omega
      rw [accZ_succ Z r n hn8, accK_succ x0 x1 r n hn8, ih (by omega), hchunk]
  rw [hacc 8 le_rfl, den_eq_accK]

end Cert.KernelIdeal.Hand

end
-- ==== Proof.Region0Value.lean ====
/- What the three output arrays of the first pallas_call hold after its 8 grid points, at the extended reals, as
   functions of the two input arrays, index by index. Point t takes rows 512·t … 512·t + 511 of each input array,
   divides each row by its clamped Euclidean norm and writes those rows of the two normalised arrays and the 512
   row-wise inner products of the two; the 8 points' blocks tile the arrays, so each output array ends as one
   function of the inputs: the normalised entries (Spec.zn) and the positive-pair similarities (Spec.pos). -/
import proofs.«103048_j24962349924507_2_alg».proof.Proof.Region0
import proofs.«103048_j24962349924507_2_alg».proof.Proof.Spec
import proofs.«103048_j24962349924507_2_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-! ## The body's payloads at an index, at the extended reals -/

/-- A block's entry (p, q) divided by row p's clamped norm: the row's sum of squares is a lane sum kept as a column,
    the square root and the clamp act on that column, and the column is broadcast along the row. -/
theorem pay1_apply (x : Vec Ideal S512x512 .f32) (p q : Fin 512) :
    k0_pay1 x (ix2 p q)
      = Ideal.div (x (ix2 p q)) (max (Ideal.sqrt (∑ k : Fin 512, x (ix2 p k) * x (ix2 p k))) Cert.Spec.eps) := by
  unfold k0_pay1
  show Ideal.div (x (ix2 p q)) (broadcastTo S512x512 (maximumf (sqrt (shapeCast S512x1 (multiReduction (F := Ideal) .add [1] S512 (mulf x x) 0x00000000#32 reduces_S512x512_S512 (.inl rfl) rfl) shapeCasts_S512_S512x1)) (broadcast S512x1 (Scalar.ofBits (F := Ideal) .f32 0x2B8CBCCC#32))) broadcasts_S512x1_S512x512 (ix2 p q)) = _
  refine congrArg (Ideal.div (x (ix2 p q))) ?_
  refine (Cert.LibColumns.broadcastTo_a1_ab_apply _ broadcasts_S512x1_S512x512 p q).trans ?_
  show max (Ideal.sqrt (shapeCast S512x1 (multiReduction (F := Ideal) .add [1] S512 (mulf x x) 0x00000000#32 reduces_S512x512_S512 (.inl rfl) rfl) shapeCasts_S512_S512x1 (ix2 p (0 : Fin 1)))) Cert.Spec.eps = _
  refine congrArg (fun z => max (Ideal.sqrt z) Cert.Spec.eps) ?_
  refine (Cert.LibColumns.shapeCast_a_a1_apply _ shapeCasts_S512_S512x1 p 0).trans ?_
  exact Cert.LibColumns.multiReduction_add_rows_apply (mulf x x) 0x00000000#32 reduces_S512x512_S512 (.inl rfl) rfl p

/-- The same for the second input's payload. -/
theorem pay2_apply (x : Vec Ideal S512x512 .f32) (p q : Fin 512) :
    k0_pay2 x (ix2 p q)
      = Ideal.div (x (ix2 p q)) (max (Ideal.sqrt (∑ k : Fin 512, x (ix2 p k) * x (ix2 p k))) Cert.Spec.eps) := by
  unfold k0_pay2
  show Ideal.div (x (ix2 p q)) (broadcastTo S512x512 (maximumf (sqrt (shapeCast S512x1 (multiReduction (F := Ideal) .add [1] S512 (mulf x x) 0x00000000#32 reduces_S512x512_S512 (.inl rfl) rfl) shapeCasts_S512_S512x1)) (broadcast S512x1 (Scalar.ofBits (F := Ideal) .f32 0x2B8CBCCC#32))) broadcasts_S512x1_S512x512 (ix2 p q)) = _
  refine congrArg (Ideal.div (x (ix2 p q))) ?_
  refine (Cert.LibColumns.broadcastTo_a1_ab_apply _ broadcasts_S512x1_S512x512 p q).trans ?_
  show max (Ideal.sqrt (shapeCast S512x1 (multiReduction (F := Ideal) .add [1] S512 (mulf x x) 0x00000000#32 reduces_S512x512_S512 (.inl rfl) rfl) shapeCasts_S512_S512x1 (ix2 p (0 : Fin 1)))) Cert.Spec.eps = _
  refine congrArg (fun z => max (Ideal.sqrt z) Cert.Spec.eps) ?_
  refine (Cert.LibColumns.shapeCast_a_a1_apply _ shapeCasts_S512_S512x1 p 0).trans ?_
  exact Cert.LibColumns.multiReduction_add_rows_apply (mulf x x) 0x00000000#32 reduces_S512x512_S512 (.inl rfl) rfl p

/-- The third payload at row p: the lane sum of the products of the two normalised blocks. -/
theorem pay3_apply (x0 x1 : Vec Ideal S512x512 .f32) (p : Fin 512) :
    k0_pay3 x0 x1 (ix1 p) = ∑ k : Fin 512, k0_pay1 x0 (ix2 p k) * k0_pay2 x1 (ix2 p k) := by
  unfold k0_pay3
  exact Cert.LibColumns.multiReduction_add_rows_apply (mulf (k0_pay1 x0) (k0_pay2 x1)) 0x00000000#32 reduces_S512x512_S512 (.inl rfl) rfl p

/-- Rounding to bf16 is the identity at the extended reals. -/
theorem pay4_apply (x : Vec Ideal S512x512 .f32) (j : S512x512.Idx) : k0_pay4 x j = k0_pay1 x j := rfl
theorem pay5_apply (x : Vec Ideal S512x512 .f32) (j : S512x512.Idx) : k0_pay5 x j = k0_pay2 x j := rfl

/-! ## The payloads of a block of rows of a whole array are the specification's functions of the array -/

/-- If row p of the block is row r of the array X, the block's normalised entry (p, q) is X's normalised entry (r, q). -/
theorem pay1_eq_zn (X : S4096x512.Idx → EReal) (x : Vec Ideal S512x512 .f32) (p q : Fin 512) (r : Fin 4096)
    (hx : ∀ k : Fin 512, x (ix2 p k) = X (ix2 r k)) : k0_pay1 x (ix2 p q) = Cert.Spec.zn X r q := by
  rw [pay1_apply x p q]
  unfold Cert.Spec.zn Cert.Spec.nrm Cert.Spec.ss
  simp only [hx]
theorem pay2_eq_zn (X : S4096x512.Idx → EReal) (x : Vec Ideal S512x512 .f32) (p q : Fin 512) (r : Fin 4096)
    (hx : ∀ k : Fin 512, x (ix2 p k) = X (ix2 r k)) : k0_pay2 x (ix2 p q) = Cert.Spec.zn X r q := by
  rw [pay2_apply x p q]
  unfold Cert.Spec.zn Cert.Spec.nrm Cert.Spec.ss
  simp only [hx]
/-- and the inner product of the two blocks' normalised rows p is the arrays' positive-pair similarity at row r. -/
theorem pay3_eq_pos (X0 X1 : S4096x512.Idx → EReal) (x0 x1 : Vec Ideal S512x512 .f32) (p : Fin 512) (r : Fin 4096)
    (hx0 : ∀ k : Fin 512, x0 (ix2 p k) = X0 (ix2 r k)) (hx1 : ∀ k : Fin 512, x1 (ix2 p k) = X1 (ix2 r k)) :
    k0_pay3 x0 x1 (ix1 p) = Cert.Spec.pos X0 X1 r := by
  rw [pay3_apply x0 x1 p]
  unfold Cert.Spec.pos
  exact Finset.sum_congr rfl fun k _ => by rw [pay1_eq_zn X0 x0 p k r hx0, pay2_eq_zn X1 x1 p k r hx1]

/-! ## The blocks of the whole arrays -/

section Arrays
-- the TensorCore's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: at point t every window is on block row t (and block column 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 1) = t.val :=
  (by decide +kernel : ∀ t : Fin grid0.N, _)

/-- Input window 0's block at point t is rows 512·t … 512·t + 511 of the first argument array. -/
theorem iblk0_0_apply (c : Dev nD) (t : Fin cfg0.N) (x : S512x512.Idx) (k : S4096x512.Idx)
    (hk0 : (k 0).val = 512 * t.val + (x 0).val) (hk1 : (k 1).val = (x 1).val) :
    (iblk0 V c 0 t : Vec Ideal S512x512 .f32) x = (V c main_arg0 : S4096x512.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 512 + 1 * (x 0).val = (k 0).val; rw [e0, hk0]; omega
  | ⟨1, _⟩ => show win0_0.index t 1 * 512 + 1 * (x 1).val = (k 1).val; rw [e1, hk1]; omega

/-- Input window 1's block at point t is the same rows of the second argument array. -/
theorem iblk0_1_apply (c : Dev nD) (t : Fin cfg0.N) (x : S512x512.Idx) (k : S4096x512.Idx)
    (hk0 : (k 0).val = 512 * t.val + (x 0).val) (hk1 : (k 1).val = (x 1).val) :
    (iblk0 V c 1 t : Vec Ideal S512x512 .f32) x = (V c main_arg1 : S4096x512.Idx → EReal) k := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 512 + 1 * (x 0).val = (k 0).val; rw [e0, hk0]; omega
  | ⟨1, _⟩ => show win0_1.index t 1 * 512 + 1 * (x 1).val = (k 1).val; rw [e1, hk1]; omega

/-! ## Output window 2: the first array normalised -/

/-- The first normalised array, index by index. -/
abbrev G2 (c : Dev nD) : S4096x512.Idx → EReal :=
  fun i => Cert.Spec.zn (V c main_arg0 : S4096x512.Idx → EReal) (i 0) (i 1)

/-- What point t writes back to window 2's array is block t of the first normalised array. -/
theorem flushed0_2_eq (c : Dev nD) (t : Fin cfg0.N) :
    (dat0 (F := Ideal) V c).flushed 2 t = ((cfg0.win 2).blk t).view.read (Elt Ideal) (G2 V c) := by
  show (cfg0.win 2).cut (grid0.coords t) ((dat0 V c).after 2 t) = _
  rw [after0_2]
  unfold out0_2
  rw [View.canon_unit_zero hz2]
  simp only [View.ld_unit_zero (S := S512x512) hz2]
  obtain ⟨-, -, -, -, e0, e1, -⟩ := idx_facts0 t
  funext j
  obtain ⟨p, q, rfl⟩ : ∃ (p q : Fin 512), j = ix2 p q := ⟨j 0, j 1, eq_ix2 j⟩
  show k0_pay4 (iblk0 V c 0 t) (ix2 p q)
    = Cert.Spec.zn (V c main_arg0 : S4096x512.Idx → EReal) ((((cfg0.win 2).blk t).view.emb (ix2 p q)) 0) ((((cfg0.win 2).blk t).view.emb (ix2 p q)) 1)
  have hE1 : (((cfg0.win 2).blk t).view.emb (ix2 p q)) 1 = q :=
    Fin.ext (by show win0_2.index t 1 * 512 + 1 * q.val = q.val; rw [e1]; omega)
  rw [hE1]
  exact pay1_eq_zn _ _ p q _ fun k => iblk0_0_apply V c t (ix2 p k) (ix2 _ k)
    (by show win0_2.index t 0 * 512 + 1 * p.val = 512 * t.val + p.val; rw [e0]; omega) rfl

/-- An index of the array is in point t's block iff each coordinate is in the block's range on its axis. -/
theorem mem_blk0_2 (t : Fin cfg0.N) (i : S4096x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0_0).slice (win0_2.rect t)).set ↔ _
  rw [View.set_slice_whole, Rect.mem_set_unit]
  exact Iff.rfl

/-- Every index is in some point's block: row r is in the block of point r / 512. -/
theorem covered0_2 (i : S4096x512.Idx) :
    ∃ t : Fin cfg0.N, (cfg0.win 2).flush t = true ∧ i ∈ ((cfg0.win 2).blk t).view.set := by
  have hi0 : (i 0).val < 4096 := (i 0).isLt
  have hi1 : (i 1).val < 512 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, e0, e1, -⟩ := idx_facts0 t
  refine ⟨t, flush0_2 t, ?_⟩
  rw [mem_blk0_2]
  intro a
  match a with
  | ⟨0, _⟩ => show win0_2.index t 0 * 512 ≤ (i 0).val ∧ (i 0).val < win0_2.index t 0 * 512 + 512; rw [e0, ht]; omega
  | ⟨1, _⟩ => show win0_2.index t 1 * 512 ≤ (i 1).val ∧ (i 1).val < win0_2.index t 1 * 512 + 512; rw [e1]; omega

/-- After the 8 points the first output array is the first argument array normalised row by row. -/
theorem arr0_2 (c : Dev nD) :
    (dat0 (F := Ideal) V c).arrAt 2 cfg0.N
      = (fun i => Cert.Spec.zn (V c main_arg0 : S4096x512.Idx → EReal) (i 0) (i 1) : S4096x512.Idx → EReal) :=
  (dat0 V c).arrAt_eq_of_cover 2 (G2 V c) (fun t _ => flushed0_2_eq V c t) covered0_2

/-! ## Output window 3: the second array normalised -/

/-- The second normalised array, index by index. -/
abbrev G3 (c : Dev nD) : S4096x512.Idx → EReal :=
  fun i => Cert.Spec.zn (V c main_arg1 : S4096x512.Idx → EReal) (i 0) (i 1)

/-- What point t writes back to window 3's array is block t of the second normalised array. -/
theorem flushed0_3_eq (c : Dev nD) (t : Fin cfg0.N) :
    (dat0 (F := Ideal) V c).flushed 3 t = ((cfg0.win 3).blk t).view.read (Elt Ideal) (G3 V c) := by
  show (cfg0.win 3).cut (grid0.coords t) ((dat0 V c).after 3 t) = _
  rw [after0_3]
  unfold out0_3
  rw [View.canon_unit_zero hz2]
  simp only [View.ld_unit_zero (S := S512x512) hz2]
  obtain ⟨-, -, -, -, -, -, e0, e1, -⟩ := idx_facts0 t
  funext j
  obtain ⟨p, q, rfl⟩ : ∃ (p q : Fin 512), j = ix2 p q := ⟨j 0, j 1, eq_ix2 j⟩
  show k0_pay5 (iblk0 V c 1 t) (ix2 p q)
    = Cert.Spec.zn (V c main_arg1 : S4096x512.Idx → EReal) ((((cfg0.win 3).blk t).view.emb (ix2 p q)) 0) ((((cfg0.win 3).blk t).view.emb (ix2 p q)) 1)
  have hE1 : (((cfg0.win 3).blk t).view.emb (ix2 p q)) 1 = q :=
    Fin.ext (by show win0_3.index t 1 * 512 + 1 * q.val = q.val; rw [e1]; omega)
  rw [hE1]
  exact pay2_eq_zn _ _ p q _ fun k => iblk0_1_apply V c t (ix2 p k) (ix2 _ k)
    (by show win0_3.index t 0 * 512 + 1 * p.val = 512 * t.val + p.val; rw [e0]; omega) rfl

/-- An index of the array is in point t's block iff each coordinate is in the block's range on its axis. -/
theorem mem_blk0_3 (t : Fin cfg0.N) (i : S4096x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0_1).slice (win0_3.rect t)).set ↔ _
  rw [View.set_slice_whole, Rect.mem_set_unit]
  exact Iff.rfl

/-- Every index is in some point's block: row r is in the block of point r / 512. -/
theorem covered0_3 (i : S4096x512.Idx) :
    ∃ t : Fin cfg0.N, (cfg0.win 3).flush t = true ∧ i ∈ ((cfg0.win 3).blk t).view.set := by
  have hi0 : (i 0).val < 4096 := (i 0).isLt
  have hi1 : (i 1).val < 512 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, e0, e1, -⟩ := idx_facts0 t
  refine ⟨t, flush0_3 t, ?_⟩
  rw [mem_blk0_3]
  intro a
  match a with
  | ⟨0, _⟩ => show win0_3.index t 0 * 512 ≤ (i 0).val ∧ (i 0).val < win0_3.index t 0 * 512 + 512; rw [e0, ht]; omega
  | ⟨1, _⟩ => show win0_3.index t 1 * 512 ≤ (i 1).val ∧ (i 1).val < win0_3.index t 1 * 512 + 512; rw [e1]; omega

/-- After the 8 points the second output array is the second argument array normalised row by row. -/
theorem arr0_3 (c : Dev nD) :
    (dat0 (F := Ideal) V c).arrAt 3 cfg0.N
      = (fun i => Cert.Spec.zn (V c main_arg1 : S4096x512.Idx → EReal) (i 0) (i 1) : S4096x512.Idx → EReal) :=
  (dat0 V c).arrAt_eq_of_cover 3 (G3 V c) (fun t _ => flushed0_3_eq V c t) covered0_3

/-! ## Output window 4: the positive-pair similarities -/

/-- Row by row, the inner product of the two normalised arrays' rows. -/
abbrev G4 (c : Dev nD) : S4096.Idx → EReal :=
  fun i => Cert.Spec.pos (V c main_arg0 : S4096x512.Idx → EReal) (V c main_arg1 : S4096x512.Idx → EReal) (i 0)

/-- What point t writes back to window 4's array is entries 512·t … 512·t + 511 of the similarities. -/
theorem flushed0_4_eq (c : Dev nD) (t : Fin cfg0.N) :
    (dat0 (F := Ideal) V c).flushed 4 t = ((cfg0.win 4).blk t).view.read (Elt Ideal) (G4 V c) := by
  show (cfg0.win 4).cut (grid0.coords t) ((dat0 V c).after 4 t) = _
  rw [after0_4]
  unfold out0_4
  rw [View.canon_unit_zero hz1]
  simp only [View.ld_unit_zero (S := S512x512) hz2]
  obtain ⟨-, -, -, -, -, -, -, -, e0⟩ := idx_facts0 t
  funext j
  obtain ⟨p, rfl⟩ : ∃ (p : Fin 512), j = ix1 p := ⟨j 0, eq_ix1 j⟩
  show k0_pay3 (iblk0 V c 0 t) (iblk0 V c 1 t) (ix1 p)
    = Cert.Spec.pos (V c main_arg0 : S4096x512.Idx → EReal) (V c main_arg1 : S4096x512.Idx → EReal) ((((cfg0.win 4).blk t).view.emb (ix1 p)) 0)
  have hE0 : ((((cfg0.win 4).blk t).view.emb (ix1 p)) 0).val = 512 * t.val + p.val := by
    show win0_4.index t 0 * 512 + 1 * p.val = 512 * t.val + p.val; rw [e0]; omega
  exact pay3_eq_pos _ _ _ _ p _
    (fun k => iblk0_0_apply V c t (ix2 p k) (ix2 _ k) hE0 rfl)
    (fun k => iblk0_1_apply V c t (ix2 p k) (ix2 _ k) hE0 rfl)

/-- An index of the array is in point t's block iff it is in the block's range. -/
theorem mem_blk0_4 (t : Fin cfg0.N) (i : S4096.Idx) :
    i ∈ ((cfg0.win 4).blk t).view.set ↔ ∀ a : Fin 1, win0_4.index t a * S512.size a ≤ (i a).val ∧ (i a).val < win0_4.index t a * S512.size a + S512.size a := by
  show i ∈ ((View.whole main_v0_2).slice (win0_4.rect t)).set ↔ _
  rw [View.set_slice_whole, Rect.mem_set_unit]
  exact Iff.rfl

/-- Every index is in some point's block: entry r is in the block of point r / 512. -/
theorem covered0_4 (i : S4096.Idx) :
    ∃ t : Fin cfg0.N, (cfg0.win 4).flush t = true ∧ i ∈ ((cfg0.win 4).blk t).view.set := by
  have hi0 : (i 0).val < 4096 := (i 0).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, e0⟩ := idx_facts0 t
  refine ⟨t, flush0_4 t, ?_⟩
  rw [mem_blk0_4]
  intro a
  match a with
  | ⟨0, _⟩ => show win0_4.index t 0 * 512 ≤ (i 0).val ∧ (i 0).val < win0_4.index t 0 * 512 + 512; rw [e0, ht]; omega

/-- After the 8 points the third output array holds, row by row, the inner product of the two normalised rows. -/
theorem arr0_4 (c : Dev nD) :
    (dat0 (F := Ideal) V c).arrAt 4 cfg0.N
      = (fun i => Cert.Spec.pos (V c main_arg0 : S4096x512.Idx → EReal) (V c main_arg1 : S4096x512.Idx → EReal) (i 0) : S4096.Idx → EReal) :=
  (dat0 V c).arrAt_eq_of_cover 4 (G4 V c) (fun t _ => flushed0_4_eq V c t) covered0_4

end Arrays

end Cert.KernelIdeal.Hand

end
-- ==== Proof.Concat.lean ====
/-
  Two arrays of 4096 rows joined along the rows into one of 8192, read at an index: a row below 4096 is that row of the
  first array; a row from 4096 on is the row 4096 less of the second. Stated for the [4096, 512] arrays and for the
  [4096] vectors, at any element type.
-/
import Idealize.ShloMosaic.Lib.ValueIdx
import Idealize.ShloMosaic.Lib.Pipeline.Value

namespace Cert.Concat

open Idealize.ShloMosaic Idealize.ShloMosaic.ValueIdx

variable {α : Type}

/-- The join of two [4096, 512] arrays along the rows, at (r, d). -/
theorem concat_rows_apply (a b : (⟨2, ![4096, 512]⟩ : Shape).Idx → α)
    (h : Shape.Concatenates [(⟨2, ![4096, 512]⟩ : Shape), ⟨2, ![4096, 512]⟩] ⟨2, ![8192, 512]⟩ 0) (r : Fin 8192) (d : Fin 512) :
    concatenate ⟨2, ![8192, 512]⟩ 0 [⟨⟨2, ![4096, 512]⟩, a⟩, ⟨⟨2, ![4096, 512]⟩, b⟩] h (ix2 r d)
      = if hr : r.val < 4096 then a (ix2 ⟨r.val, hr⟩ d)
        else b (ix2 ⟨r.val - 4096, by have := r.isLt; omega⟩ d) := by
  by_cases hr : r.val < 4096
  · rw [dif_pos hr]
    exact concatenate_pair_apply_left (t := ⟨2, ![8192, 512]⟩) (s₁ := ⟨2, ![4096, 512]⟩) (s₂ := ⟨2, ![4096, 512]⟩) 0 a b h
      (ix2 r d) rfl (ix2 ⟨r.val, hr⟩ d) (fun ax => by match ax with | ⟨0, _⟩ => rfl | ⟨1, _⟩ => rfl)
  · rw [dif_neg hr]
    have h2 : r.val - 4096 < 4096 := by have := r.isLt; omega
    obtain ⟨p, hp⟩ : ∃ p : Fin 4096, p.val + 4096 = r.val :=
      ⟨⟨r.val - 4096, h2⟩, by show r.val - 4096 + 4096 = r.val; omega⟩
    refine (concatenate_pair_apply_right (t := ⟨2, ![8192, 512]⟩) (s₁ := ⟨2, ![4096, 512]⟩) (s₂ := ⟨2, ![4096, 512]⟩) 0 a b h
      (ix2 r d) rfl rfl (ix2 p d)
      (fun ax hax => by match ax with | ⟨0, _⟩ => exact absurd (Fin.ext rfl) hax | ⟨1, _⟩ => rfl) hp).trans ?_
    exact congrArg (fun s => b (ix2 s d)) (Fin.ext (by show p.val = r.val - 4096; omega))

/-- The join of two [4096] vectors, at r. -/
theorem concat_vec_apply (a b : (⟨1, ![4096]⟩ : Shape).Idx → α)
    (h : Shape.Concatenates [(⟨1, ![4096]⟩ : Shape), ⟨1, ![4096]⟩] ⟨1, ![8192]⟩ 0) (r : Fin 8192) :
    concatenate ⟨1, ![8192]⟩ 0 [⟨⟨1, ![4096]⟩, a⟩, ⟨⟨1, ![4096]⟩, b⟩] h (ix1 r)
      = if hr : r.val < 4096 then a (ix1 ⟨r.val, hr⟩)
        else b (ix1 ⟨r.val - 4096, by have := r.isLt; omega⟩) := by
  by_cases hr : r.val < 4096
  · rw [dif_pos hr]
    exact concatenate_pair_apply_left (t := ⟨1, ![8192]⟩) (s₁ := ⟨1, ![4096]⟩) (s₂ := ⟨1, ![4096]⟩) 0 a b h
      (ix1 r) rfl (ix1 ⟨r.val, hr⟩) (fun ax => by match ax with | ⟨0, _⟩ => rfl)
  · rw [dif_neg hr]
    have h2 : r.val - 4096 < 4096 := by have := r.isLt; omega
    obtain ⟨p, hp⟩ : ∃ p : Fin 4096, p.val + 4096 = r.val :=
      ⟨⟨r.val - 4096, h2⟩, by show r.val - 4096 + 4096 = r.val; omega⟩
    refine (concatenate_pair_apply_right (t := ⟨1, ![8192]⟩) (s₁ := ⟨1, ![4096]⟩) (s₂ := ⟨1, ![4096]⟩) 0 a b h
      (ix1 r) rfl rfl (ix1 p) (fun ax hax => absurd (Fin.ext (Nat.lt_one_iff.mp ax.isLt)) hax) hp).trans ?_
    exact congrArg (fun s => b (ix1 s)) (Fin.ext (by show p.val = r.val - 4096; omega))

end Cert.Concat
-- ==== Proof.HostReads.lean ====
/- The host operations of the kernel program, read off the buffers' contents at the boundaries between its segments.
   After the first call its three result arrays are the two argument arrays normalised row by row and the row-wise
   inner products of the two; the two concatenations join the normalised arrays into the 8192 normalised rows and lay
   the inner products out twice; the closing operations are the specification's tail applied to those and to the second
   call's row sums. -/
import proofs.«103048_j24962349924507_2_alg».proof.Proof.Run
import proofs.«103048_j24962349924507_2_alg».proof.Proof.Region0Value
import proofs.«103048_j24962349924507_2_alg».proof.Proof.Concat
import proofs.«103048_j24962349924507_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## The first call's result arrays -/

/-- After the first call its first result array is the first argument array normalised row by row, -/
theorem W1_v0_0 (c : Dev nD) :
    (W1 (F := Ideal) m ρ c (Proc.devRef .tc main_v0_0) : S4096x512.Idx → EReal)
      = fun i => Cert.Spec.zn (m ((c : Thread nD τ).loc main_arg0) : S4096x512.Idx → EReal) (i 0) (i 1) :=
  (W1_arr m ρ c 2).trans (arr0_2 (Va0 m ρ) c)
/-- its second the second argument array normalised, -/
theorem W1_v0_1 (c : Dev nD) :
    (W1 (F := Ideal) m ρ c (Proc.devRef .tc main_v0_1) : S4096x512.Idx → EReal)
      = fun i => Cert.Spec.zn (m ((c : Thread nD τ).loc main_arg1) : S4096x512.Idx → EReal) (i 0) (i 1) :=
  (W1_arr m ρ c 3).trans (arr0_3 (Va0 m ρ) c)
/-- and its third the inner products of the two normalised arrays' rows. -/
theorem W1_v0_2 (c : Dev nD) :
    (W1 (F := Ideal) m ρ c (Proc.devRef .tc main_v0_2) : S4096.Idx → EReal)
      = fun i => Cert.Spec.pos (m ((c : Thread nD τ).loc main_arg0) : S4096x512.Idx → EReal)
          (m ((c : Thread nD τ).loc main_arg1) : S4096x512.Idx → EReal) (i 0) :=
  (W1_arr m ρ c 4).trans (arr0_4 (Va0 m ρ) c)

/-! ## The two concatenations -/

/-- The array the second call reads is the two normalised arrays joined along the rows. -/
theorem W2_v1 (c : Dev nD) :
    W2 (F := Ideal) m ρ c (Proc.devRef .tc main_v1)
      = concatenate S8192x512 0 [⟨S4096x512, W1 m ρ c (Proc.devRef .tc main_v0_0)⟩, ⟨S4096x512, W1 m ρ c (Proc.devRef .tc main_v0_1)⟩]
          concatenates_S4096x512_S4096x512_S8192x512_d0 := by
  show StableHlo.after hostOps1 (W1 m ρ c) (Proc.devRef .tc main_v1) = _
  after_results

/-- The inner products are laid out twice, one copy after the other. -/
theorem W2_v2 (c : Dev nD) :
    W2 (F := Ideal) m ρ c (Proc.devRef .tc main_v2)
      = concatenate S8192 0 [⟨S4096, W1 m ρ c (Proc.devRef .tc main_v0_2)⟩, ⟨S4096, W1 m ρ c (Proc.devRef .tc main_v0_2)⟩]
          concatenates_S4096_S4096_S8192_d0 := by
  show StableHlo.after hostOps1 (W1 m ρ c) (Proc.devRef .tc main_v2) = _
  after_results

/-- Row r of the array the second call reads is the r-th of the 8192 normalised rows. -/
theorem Z_apply (c : Dev nD) (r : Fin 8192) (d : Fin 512) :
    (Va2 (F := Ideal) m ρ c main_v1 : S8192x512.Idx → EReal) (ix2 r d)
      = Cert.Spec.zz (m ((c : Thread nD τ).loc main_arg0) : S4096x512.Idx → EReal)
          (m ((c : Thread nD τ).loc main_arg1) : S4096x512.Idx → EReal) r d := by
  show (W2 m ρ c (Proc.devRef .tc main_v1) : S8192x512.Idx → EReal) (ix2 r d) = _
  rw [W2_v1]
  refine (Cert.Concat.concat_rows_apply _ _ concatenates_S4096x512_S4096x512_S8192x512_d0 r d).trans ?_
  rw [W1_v0_0, W1_v0_1]
  unfold Cert.Spec.zz
  rfl

/-- After the second call the laid-out inner products are the positives of the 8192 rows. -/
theorem pos_eq (c : Dev nD) :
    (W3 (F := Ideal) m ρ c (Proc.devRef .tc main_v2) : S8192.Idx → EReal)
      = Cert.Spec.posv (m ((c : Thread nD τ).loc main_arg0) : S4096x512.Idx → EReal)
          (m ((c : Thread nD τ).loc main_arg1) : S4096x512.Idx → EReal) := by
  rw [W3_of_ne m ρ c main_v2 (by decide), W2_v2]
  funext j
  obtain ⟨r, rfl⟩ : ∃ r : Fin 8192, j = ix1 r := ⟨j 0, eq_ix1 j⟩
  refine (Cert.Concat.concat_vec_apply _ _ concatenates_S4096_S4096_S8192_d0 r).trans ?_
  rw [W1_v0_2]
  unfold Cert.Spec.posv
  have hr8 : r.val < 8192 := r.isLt
  by_cases hr : r.val < 4096
  · rw [dif_pos hr]
    exact congrArg (Cert.Spec.pos _ _) (Fin.ext (by show r.val = r.val % 4096; omega))
  · rw [dif_neg hr]
    exact congrArg (Cert.Spec.pos _ _) (Fin.ext (by show r.val - 4096 = r.val % 4096; omega))

/-! ## The closing operations -/

/-- The program's result is the specification's tail of the laid-out inner products and the second call's row sums. -/
theorem v10_eq_tail (c : Dev nD) :
    W4 (F := Ideal) m ρ c (Proc.devRef .tc main_v10)
      = Cert.Spec.tail bcast_S_S8192 reducesTo_S8192_S_d0 h_S_ (W3 m ρ c (Proc.devRef .tc main_v2)) (W3 m ρ c (Proc.devRef .tc main_v3)) := by
  show StableHlo.after hostOps2 (W3 m ρ c) (Proc.devRef .tc main_v10) = _
  after_results
  rfl

end Cert.KernelIdeal.Hand

end
-- ==== Proof.Value.lean ====
import proofs.«103048_j24962349924507_2_alg».proof.Proof.Gen.KernelIdeal.Launch
import proofs.«103048_j24962349924507_2_alg».proof.Proof.Gen.KernelIdeal.Skeleton
import proofs.«103048_j24962349924507_2_alg».proof.Proof.Gen.KernelIdeal.Points
import proofs.«103048_j24962349924507_2_alg».proof.Proof.Gen.KernelIdeal.Loops
import proofs.«103048_j24962349924507_2_alg».proof.Proof.Frame
import proofs.«103048_j24962349924507_2_alg».proof.Proof.Region1Value
import proofs.«103048_j24962349924507_2_alg».proof.Proof.HostReads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The program's result at the exact values

The closing host operations are applied to the positives (each row's, laid out twice) and to the row sums the second call
leaves; the positives are the specification's by the first call's values, and the row sums are the denominators because the
array the second call reads is the array of normalised rows. -/

variable (m : (ℓ : Loc nD τ sig) → Buf (Elt Ideal) ℓ) (ρ : Dev nD → PrngReg)

/-- The result buffer at the end, as the specification's loss of the two argument arrays. -/
theorem result_eq (c : Dev nD) :
    W4 (F := Ideal) m ρ c (Proc.devRef .tc main_v10)
      = Cert.Spec.tail bcast_S_S8192 reducesTo_S8192_S_d0 h_S_
          (Cert.Spec.posv (m ((c : Thread nD τ).loc main_arg0) : S4096x512.Idx → EReal) (m ((c : Thread nD τ).loc main_arg1) : S4096x512.Idx → EReal))
          (Cert.Spec.denv (m ((c : Thread nD τ).loc main_arg0) : S4096x512.Idx → EReal) (m ((c : Thread nD τ).loc main_arg1) : S4096x512.Idx → EReal)) := by
  rw [v10_eq_tail, pos_eq, W3_v3, arr1_2_value]
  refine congrArg (Cert.Spec.tail bcast_S_S8192 reducesTo_S8192_S_d0 h_S_ _) (funext fun j => ?_)
  exact accZ_eq_den _ _ _ (Z_apply m ρ c) (j 0)

/-- Every weakly fair execution ends, without a fault, with the result at the specification's loss and both argument arrays as
    launched. -/
theorem run_value : θ_run defs (onTc (τ := τ) (main (F := Ideal))) ⟨m, fun _ => 0, ρ⟩ (fun r => ∀ c : Dev nD,
      r.2.mem ((c.tc : Thread nD τ).loc main_v10)
        = Cert.Spec.tail bcast_S_S8192 reducesTo_S8192_S_d0 h_S_
          (Cert.Spec.posv (m ((c : Thread nD τ).loc main_arg0) : S4096x512.Idx → EReal) (m ((c : Thread nD τ).loc main_arg1) : S4096x512.Idx → EReal))
          (Cert.Spec.denv (m ((c : Thread nD τ).loc main_arg0) : S4096x512.Idx → EReal) (m ((c : Thread nD τ).loc main_arg1) : S4096x512.Idx → EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_ucH main_v10 (by decide))).trans (result_eq m ρ c),
     (h c _ (mem_ucH main_arg0 (by decide))).trans (W4_arg0 m ρ c), (h c _ (mem_ucH main_arg1 (by decide))).trans (W4_arg1 m ρ c)⟩)
    (run_all m ρ)

end Cert.KernelIdeal.Hand

end
-- ==== Proof.RefSpec.lean ====
/-
  The reference program computes the loss of the specification.

  Stage by stage, at an index: the reference divides each array by its rows' clamped Euclidean norms (the entries
  zn), stacks the two normalised arrays into 8192 rows (zz: a row below 4096 is the first array's, a row from 4096 on
  the second array's, 4096 less), takes all inner products of those rows (sim), and for row r adds up over the
  columns k the products (1 − [r = k]) · exp(sim r k / ½), the bracket being the 0/1 value of the comparison of the
  row and column numbers as 32-bit words. Dividing by the literal one half is multiplying by the literal two, at the
  infinities too; on the diagonal the factor is 1 − 1 = 0 and the product is zero, off it the factor is 1 − 0 = 1 and
  the product is exp(2 · sim r k): the column sum is den r. The positives are the inner products of the matching rows
  of the two normalised arrays, laid out twice over the 8192 rows: row j holds pos (j mod 4096). The last six
  operations are the tail both programs share, applied to these two arrays; it is never opened.
-/
import proofs.«103048_j24962349924507_2_alg».proof.Proof.Gen.ReferenceIdeal.Read
import proofs.«103048_j24962349924507_2_alg».proof.Proof.Spec
import Idealize.ShloMosaic.Lib.IdealHost

noncomputable section

namespace Cert.RefSpec

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-- The reference's last six operations are the shared tail applied to its positives and its denominators. -/
theorem v34_eq_tail (x0 x1 : SA.Idx → EReal) :
    val_main_v34 (F := Ideal) x0 x1
      = Cert.Spec.tail bcast_S_S8192 reducesTo_S8192_S_d0 h_S_ (val_main_v14 (F := Ideal) x0 x1) (val_main_v27 (F := Ideal) x0 x1) := by
  unfold val_main_v34 val_main_v33 val_main_v32 val_main_v31 val_main_v30 val_main_v29 val_main_v28 val_main_cst_5
    val_main_cst_6 val_main_cst_7 Cert.Spec.tail
  rfl

/-- The first array's normalised entry, as the reference computes it. -/
theorem v4_apply (x0 : SA.Idx → EReal) (r : Fin 4096) (d : Fin 512) :
    val_main_v4 (F := Ideal) x0 (ix2 r d) = zn x0 r d := by
  have e : ∀ k : Fin 512, idx_main_call0_v1 (idx_main_call0_v2 (idx_main_v3 (ix2 r d))) k = ix2 r k :=
    fun k => funext fun a => by match a with | ⟨0, _⟩ => rfl | ⟨1, _⟩ => rfl
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.maximumf_def, Ideal.hostUnary_sqrt_def, Ideal.mulf_def,
    Ideal.ofBits_def, Ideal.ofBits_zero_f32, zero_add, e]
  rfl

/-- The second array's normalised entry, as the reference computes it. -/
theorem v9_apply (x1 : SA.Idx → EReal) (r : Fin 4096) (d : Fin 512) :
    val_main_v9 (F := Ideal) x1 (ix2 r d) = zn x1 r d := by
  have e : ∀ k : Fin 512, idx_main_call1_v1 (idx_main_call1_v2 (idx_main_v8 (ix2 r d))) k = ix2 r k :=
    fun k => funext fun a => by match a with | ⟨0, _⟩ => rfl | ⟨1, _⟩ => rfl
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, Ideal.hostDivf_def, Ideal.maximumf_def, Ideal.hostUnary_sqrt_def, Ideal.mulf_def,
    Ideal.ofBits_def, Ideal.ofBits_zero_f32, zero_add, e]
  rfl

/-- Row p's positive similarity, as the reference computes it. -/
theorem v13_apply (x0 x1 : SA.Idx → EReal) (p : Fin 4096) :
    val_main_v13 (F := Ideal) x0 x1 (ix1 p) = pos x0 x1 p := by
  have e : ∀ k : Fin 512, idx_main_v13 (ix1 p) k = ix2 p k :=
    fun k => funext fun a => by match a with | ⟨0, _⟩ => rfl | ⟨1, _⟩ => rfl
  rw [val_main_v13_apply, val_main_cst_1_apply]
  simp only [val_main_v12_apply, e, v4_apply, v9_apply, Ideal.mulf_def, Ideal.ofBits_def, Ideal.ofBits_zero_f32, zero_add]
  rfl

/-- The positives over the 8192 rows: the 4096 positives, twice. -/
theorem v14_eq (x0 x1 : SA.Idx → EReal) : val_main_v14 (F := Ideal) x0 x1 = Cert.Spec.posv x0 x1 := by
  funext j
  obtain ⟨r, rfl⟩ : ∃ r : Fin 8192, j = ix1 r := ⟨j 0, eq_ix1 j⟩
  unfold val_main_v14 Cert.Spec.posv
  by_cases h : r.val < 4096
  · refine (concatenate_pair_apply_left (t := S8192) (s₁ := S4096) (s₂ := S4096) 0 _ _ concatenates_S4096_S4096_S8192_d0
      (ix1 r) rfl (ix1 ⟨r.val, h⟩) (fun b => by match b with | ⟨0, _⟩ => rfl)).trans ?_
    rw [v13_apply]
    exact congrArg (pos x0 x1) (Fin.ext (Nat.mod_eq_of_lt h).symm)
  · have h2 : r.val - 4096 < 4096 := by have := r.isLt; omega
    refine (concatenate_pair_apply_right (t := S8192) (s₁ := S4096) (s₂ := S4096) 0 _ _ concatenates_S4096_S4096_S8192_d0
      (ix1 r) rfl rfl (ix1 ⟨r.val - 4096, h2⟩) (fun b hb => absurd (Fin.ext (Nat.lt_one_iff.mp b.isLt)) hb)
      (by show r.val - 4096 + 4096 = r.val; omega)).trans ?_
    rw [v13_apply]
    refine congrArg (pos x0 x1) (Fin.ext ?_)
    show r.val - 4096 = r.val % 4096
    have := r.isLt; omega

/-- The 8192 normalised rows, as the reference lays them out: the first array's, then the second's. -/
theorem v10_apply (x0 x1 : SA.Idx → EReal) (r : Fin 8192) (d : Fin 512) :
    val_main_v10 (F := Ideal) x0 x1 (ix2 r d) = zz x0 x1 r d := by
  unfold val_main_v10 Cert.Spec.zz
  by_cases h : r.val < 4096
  · rw [dif_pos h]
    refine (concatenate_pair_apply_left (t := S8192x512) (s₁ := S4096x512) (s₂ := S4096x512) 0 _ _
      concatenates_S4096x512_S4096x512_S8192x512_d0 (ix2 r d) rfl (ix2 ⟨r.val, h⟩ d)
      (fun b => by match b with | ⟨0, _⟩ => rfl | ⟨1, _⟩ => rfl)).trans ?_
    exact v4_apply x0 ⟨r.val, h⟩ d
  · rw [dif_neg h]
    have h2 : r.val - 4096 < 4096 := by have := r.isLt; omega
    obtain ⟨p, hp⟩ : ∃ p : Fin 4096, p.val + 4096 = r.val := ⟨⟨r.val - 4096, h2⟩, by show r.val - 4096 + 4096 = r.val; omega⟩
    refine (concatenate_pair_apply_right (t := S8192x512) (s₁ := S4096x512) (s₂ := S4096x512) 0 _ _
      concatenates_S4096x512_S4096x512_S8192x512_d0 (ix2 r d) rfl rfl (ix2 p d)
      (fun b hb => by match b with | ⟨0, _⟩ => exact absurd (Fin.ext rfl) hb | ⟨1, _⟩ => rfl)
      hp).trans ?_
    rw [v9_apply]
    exact congrArg (fun q => zn x1 q d) (Fin.ext (by show p.val = r.val - 4096; omega))

/-- The similarity of rows r and k, as the reference computes it. -/
theorem v11_apply (x0 x1 : SA.Idx → EReal) (r k : Fin 8192) :
    val_main_v11 (F := Ideal) x0 x1 (ix2 r k) = sim x0 x1 r k := by
  have el : ∀ d : Fin 512, lidx_main_v11 (ix2 r k) d = ix2 r d :=
    fun d => funext fun a => by match a with | ⟨0, _⟩ => rfl | ⟨1, _⟩ => rfl
  have er : ∀ d : Fin 512, ridx_main_v11 (ix2 r k) d = ix2 k d :=
    fun d => funext fun a => by match a with | ⟨0, _⟩ => rfl | ⟨1, _⟩ => rfl
  rw [val_main_v11_apply]
  simp only [el, er, v10_apply]
  rfl

/-- The halving literal is the real number one half, and the doubling literal the real number two. -/
theorem half_eq : Cert.Spec.half = (((1 : ℝ) / 2 : ℝ) : EReal) := by
  unfold Cert.Spec.half
  simp [Ideal.ofBits, Ideal.ieee, -EReal.coe_mul]; norm_num

theorem two_eq : Cert.Spec.two = ((2 : ℝ) : EReal) := by
  unfold Cert.Spec.two
  simp [Ideal.ofBits, Ideal.ieee, -EReal.coe_mul]; norm_num

/-- Dividing by one half is multiplying by two, at the infinities too. -/
theorem div_half (x : EReal) : Ideal.div x Cert.Spec.half = x * Cert.Spec.two := by
  rw [half_eq, two_eq, Ideal.div_coe (by norm_num)]
  norm_num

/-- The diagonal test on 32-bit words of row and column numbers below 8192. -/
theorem diag_word (r k : Fin 8192) :
    IntOp.cmpi .eq (IntOp.addi (BitVec.ofNat 32 r.val) 0#32) (BitVec.ofNat 32 k.val) = if r.val = k.val then 1#1 else 0#1 := by
  have hr := r.isLt
  have hk := k.isLt
  unfold IntOp.cmpi IntOp.addi
  rw [BitVec.add_zero]
  by_cases h : r.val = k.val
  · rw [if_pos h, h]; simp
  · rw [if_neg h]
    have hne : BitVec.ofNat 32 r.val ≠ BitVec.ofNat 32 k.val := by
      intro e
      have e2 := congrArg BitVec.toNat e
      rw [BitVec.toNat_ofNat, BitVec.toNat_ofNat, Nat.mod_eq_of_lt (by omega), Nat.mod_eq_of_lt (by omega)] at e2
      exact h e2
    rw [show (BitVec.ofNat 32 r.val == BitVec.ofNat 32 k.val) = false from beq_eq_false_iff_ne.mpr hne]
    rfl

/-- One term of row r's denominator, as the reference computes it: (1 − [r = k]) · exp(sim r k / ½). -/
theorem v26_apply (x0 x1 : SA.Idx → EReal) (r k : Fin 8192) :
    val_main_v26 (F := Ideal) x0 x1 (ix2 r k) = term x0 x1 r k := by
  rw [val_main_v26_apply, val_main_v25_apply, val_main_v24_apply, val_main_cst_3_apply, val_main_v23_apply,
    val_main_v22_apply, val_main_v21_apply, val_main_v20_apply, val_main_c_apply, val_main_v18_apply, val_main_v19_apply,
    val_main_v17_apply, val_main_v16_apply, val_main_v15_apply, val_main_cst_2_apply, v11_apply]
  show (Ideal.ofBits .f32 0x3F800000#32
        - (((IntOp.cmpi .eq (IntOp.addi (BitVec.ofNat 32 r.val) 0#32) (BitVec.ofNat 32 k.val)).toNat : ℝ) : EReal))
      * Ideal.exp (Ideal.div (sim x0 x1 r k) Cert.Spec.half) = term x0 x1 r k
  rw [diag_word, div_half, Ideal.ofBits_one_f32]
  unfold Cert.Spec.term
  by_cases h : r.val = k.val
  · rw [if_pos h, if_pos h]
    have e1 : (1 : EReal) - ((((1#1 : BitVec 1).toNat : ℕ) : ℝ) : EReal) = 0 := by
      rw [show (((1#1 : BitVec 1).toNat : ℕ) : ℝ) = 1 by norm_num, ← EReal.coe_one, ← EReal.coe_sub, sub_self, EReal.coe_zero]
    rw [e1, zero_mul]
  · rw [if_neg h, if_neg h]
    have e0 : (1 : EReal) - ((((0#1 : BitVec 1).toNat : ℕ) : ℝ) : EReal) = 1 := by
      rw [show (((0#1 : BitVec 1).toNat : ℕ) : ℝ) = 0 by norm_num, EReal.coe_zero, sub_zero]
    rw [e0, one_mul]

/-- The denominators, as the reference computes them. -/
theorem v27_eq (x0 x1 : SA.Idx → EReal) : val_main_v27 (F := Ideal) x0 x1 = Cert.Spec.denv x0 x1 := by
  funext j
  obtain ⟨r, rfl⟩ : ∃ r : Fin 8192, j = ix1 r := ⟨j 0, eq_ix1 j⟩
  have e : ∀ k : Fin 8192, idx_main_v27 (ix1 r) k = ix2 r k :=
    fun k => funext fun a => by match a with | ⟨0, _⟩ => rfl | ⟨1, _⟩ => rfl
  rw [val_main_v27_apply, val_main_cst_4_apply]
  simp only [e, v26_apply, Ideal.ofBits_def, Ideal.ofBits_zero_f32, zero_add]
  rfl

/-- The reference's value: the shared tail applied to the positives and the denominators of the specification. -/
theorem ref_value (m : (ℓ : Loc nD τ sig) → Buf (Elt Ideal) ℓ) (c : Dev nD) :
    Cert.ReferenceIdeal.Value.res_main_v34 (F := Ideal) m c
      = Cert.Spec.tail bcast_S_S8192 reducesTo_S8192_S_d0 h_S_
          (Cert.Spec.posv (m ((c.tc : Thread nD τ).loc main_arg0)) (m ((c.tc : Thread nD τ).loc main_arg1)))
          (Cert.Spec.denv (m ((c.tc : Thread nD τ).loc main_arg0)) (m ((c.tc : Thread nD τ).loc main_arg1))) := by
  rw [val_main_v34_eq, v34_eq_tail, v14_eq, v27_eq]

end Cert.RefSpec

end
-- ==== Proof.lean ====
/-
  A contrastive (NT-Xent) loss kernel against its jnp reference, over the extended reals.

  Both programs L2-normalise the rows of two [4096, 512] arrays with the norm clamped below by one literal, take
  pos r = Σ_d zi(r,d)·zj(r,d), and for the 8192 normalised rows (those of the first array, then of the second) the
  denominators den r = Σ_{k ≠ r} exp(2·⟨z_r, z_k⟩); the loss is the mean over the rows of −(pos/½ − log den).
  The kernel computes the normalised rows and pos in a first call over eight row blocks, and the denominators in a second
  call over sixteen row blocks, each adding up eight chunks of 1024 columns with the diagonal term selected to zero; the
  reference multiplies by (1 − identity) and divides by ½. At the exact values these agree: a sum over 8192 columns is the
  sum of its eight chunks, x / ½ = x·2, (1 − 1)·e = 0 and (1 − 0)·e = e; no finiteness of the inputs is used.

  The three frames: each kernel call's body is run once at a symbolic grid point; the second call's two input windows read
  one array, whose full share is split into two halves at the call's entry and joined at its exit.
-/
import proofs.«103048_j24962349924507_2_alg».proof.Defs
import proofs.«103048_j24962349924507_2_alg».proof.Proof.Gen.Kernel
import proofs.«103048_j24962349924507_2_alg».proof.Proof.Gen.KernelIdeal
import proofs.«103048_j24962349924507_2_alg».proof.Proof.Gen.ReferenceIdeal
import proofs.«103048_j24962349924507_2_alg».proof.Proof.Gen.Pre_finite_inputs
import proofs.«103048_j24962349924507_2_alg».proof.Proof.KFrame
import proofs.«103048_j24962349924507_2_alg».proof.Proof.Value
import proofs.«103048_j24962349924507_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frameH (F := Bits) m ρ
theorem frame_ki : Cert.frame_KernelIdeal := fun m ρ _ => Cert.KernelIdeal.Hand.frameH (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end at the specification's loss of arguments that agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.RefSpec.ref_value, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
